-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1600000 : Shape := ⟨2, ![2, 1600000]⟩
abbrev S1600000 : Shape := ⟨1, ![1600000]⟩
abbrev S100000 : Shape := ⟨1, ![100000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S2 .f32) (main_v33 : IVec S_ 1) : IVec S_ 1 :=
  let main_v34 : FVec F S2 .f32 := Host.absf main_arg9
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg6 : FVec F S64x32 .f32) (main_arg7 : FVec F S32 .f32) (main_arg8 : FVec F S32x2 .f32) (main_arg9 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x2 .f32 := Host.absf main_arg8
  let main_cst_10 : FVec F S_ .f32 := constant S_ .f32 0x7F800000#32
  let main_v30 : FVec F S32x2 .f32 := broadcastInDim S32x2 ![] bcast_S_S32x2 main_cst_10
  let main_v31 : IVec S32x2 1 := cmpf .olt main_v29 main_v30
  let main_c_11 : IVec S_ 1 := constantI S_ 1 1#1
  let main_v32 : IVec S_ 1 := (fun x v => Host.reduce IntOp.andi x v reducesTo_S32x2_S_d0_1 h_S_) main_v31 main_c_11
  let main_v33 : IVec S_ 1 := andi main_v28 main_v32
  fn_part2 (F := F) main_arg9 main_v33

def fn {F : FTy → Type} [FloatOps F] (main_arg0 : FVec F S100000x32 .f32) (main_arg1 : IVec S2x1600000 32) (main_arg2 : FVec F S1600000 .f32) (main_arg3 : IVec S100000 32) (main_arg4 : FVec F S32x64 .f32) (main_arg5 : FVec F S64 .f32) (main_arg6 : FVec F S64x32 .f32) (main_arg7 : FVec F S32 .f32) (main_arg8 : FVec F S32x2 .f32) (main_arg9 : FVec F S2 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S32x64 .f32 := Host.absf main_arg4
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_v13 main_v16
-- ==== Kernel.lean ====
abbrev S100000x32 : Shape := ⟨2, ![100000, 32]⟩
abbrev S2x1600000 : Shape := ⟨2, ![2, 1600000]⟩
abbrev S1600000 : Shape := ⟨1, ![1600000]⟩
abbrev S100000 : Shape := ⟨1, ![100000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S_ : Shape := ⟨0, ![]⟩
abbrev S1600000x1 : Shape := ⟨2, ![1600000, 1]⟩
abbrev S100000x64 : Shape := ⟨2, ![100000, 64]⟩
abbrev S10000x32 : Shape := ⟨2, ![10000, 32]⟩
abbrev S10000x64 : Shape := ⟨2, ![10000, 64]⟩
abbrev S1600000x64 : Shape := ⟨2, ![1600000, 64]⟩
abbrev S1x64 : Shape := ⟨2, ![1, 64]⟩
abbrev S1600000x32 : Shape := ⟨2, ![1600000, 32]⟩
abbrev S1x32 : Shape := ⟨2, ![1, 32]⟩
abbrev S100000x1 : Shape := ⟨2, ![100000, 1]⟩
abbrev S64x1 : Shape := ⟨2, ![64, 1]⟩
abbrev S1x2 : Shape := ⟨2, ![1, 2]⟩
abbrev S64x2 : Shape := ⟨2, ![64, 2]⟩

abbrev nBuf : Space → Nat
  | .hbm => 110
  | .vmem => 20
  | .smem => 0
  | _ => 0

abbrev bufTy : (tb : Table) → Fin (tcTables nBuf tb) → BufTy
  | .hbm, ⟨0, _⟩ => ⟨S100000x32, .f32⟩
  | .hbm, ⟨1, _⟩ => ⟨S2x1600000, .i32⟩
  | .hbm, ⟨2, _⟩ => ⟨S1600000, .f32⟩
  | .hbm, ⟨3, _⟩ => ⟨S100000, .i32⟩
  | .hbm, ⟨4, _⟩ => ⟨S32x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x2, .f32⟩
  | .hbm, ⟨9, _⟩ => ⟨S2, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000, .f32⟩
  | .hbm, ⟨54, _⟩ => ⟨S1600000, .f32⟩
  | .hbm, ⟨55, _⟩ => ⟨S100000x64, .f32⟩
  | .hbm, ⟨56, _⟩ => ⟨S1600000x1, .f32⟩
  | .hbm, ⟨57, _⟩ => ⟨S_, .i32⟩
  | .hbm, ⟨58, _⟩ => ⟨S1600000, .i32⟩
  | .hbm, ⟨59, _⟩ => ⟨S1600000, .i1⟩
  | .hbm, ⟨60, _⟩ => ⟨S_, .i32⟩
  | .hbm, ⟨61, _⟩ => ⟨S1600000, .i32⟩
  | .hbm, ⟨62, _⟩ => ⟨S1600000, .i32⟩
  | .hbm, ⟨63, _⟩ => ⟨S1600000, .i32⟩
  | .hbm, ⟨64, _⟩ => ⟨S1600000x1, .i32⟩
  | .hbm, ⟨65, _⟩ => ⟨S1600000x64, .f32⟩
  | .hbm, ⟨66, _⟩ => ⟨S1600000x64, .f32⟩
  | .hbm, ⟨67, _⟩ => ⟨S1600000x64, .f32⟩
  | .hbm, ⟨68, _⟩ => ⟨S_, .f32⟩
  | .hbm, ⟨69, _⟩ => ⟨S100000x64, .f32⟩
  | .hbm, ⟨70, _⟩ => ⟨S1600000x1, .i32⟩
  | .hbm, ⟨71, _⟩ => ⟨S100000x64, .f32⟩
  | .hbm, ⟨72, _⟩ => ⟨S1x64, .f32⟩
  | .hbm, ⟨73, _⟩ => ⟨S100000x32, .f32⟩
  | .hbm, ⟨74, _⟩ => ⟨S1600000x1, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x32, .f32⟩
  | .hbm, ⟨84, _⟩ => ⟨S1600000x32, .f32⟩
  | .hbm, ⟨85, _⟩ => ⟨S1600000x32, .f32⟩
  | .hbm, ⟨86, _⟩ => ⟨S_, .f32⟩
  | .hbm, ⟨87, _⟩ => ⟨S100000x32, .f32⟩
  | .hbm, ⟨88, _⟩ => ⟨S1600000x1, .i32⟩
  | .hbm, ⟨89, _⟩ => ⟨S100000x32, .f32⟩
  | .hbm, ⟨90, _⟩ => ⟨S1x32, .f32⟩
  | .hbm, ⟨91, _⟩ => ⟨S100000x32, .f32⟩
  | .hbm, ⟨92, _⟩ => ⟨S_, .f32⟩
  | .hbm, ⟨93, _⟩ => ⟨S64x32, .f32⟩
  | .hbm, ⟨94, _⟩ => ⟨S100000x1, .i32⟩
  | .hbm, ⟨95, _⟩ => ⟨S64x32, .f32⟩
  | .hbm, ⟨96, _⟩ => ⟨S_, .f32⟩
  | .hbm, ⟨97, _⟩ => ⟨S100000, .f32⟩
  | .hbm, ⟨98, _⟩ => ⟨S_, .f32⟩
  | .hbm, ⟨99, _⟩ => ⟨S64, .f32⟩
  | .hbm, ⟨100, _⟩ => ⟨S100000x1, .i32⟩
  | .hbm, ⟨101, _⟩ => ⟨S64, .f32⟩
  | .hbm, ⟨102, _⟩ => ⟨S_, .f32⟩
  | .hbm, ⟨103, _⟩ => ⟨S64, .f32⟩
  | .hbm, ⟨104, _⟩ => ⟨S64, .f32⟩
  | .hbm, ⟨105, _⟩ => ⟨S64x1, .f32⟩
  | .hbm, ⟨106, _⟩ => ⟨S64x32, .f32⟩
  | .hbm, ⟨107, _⟩ => ⟨S64x32, .f32⟩
  | .hbm, ⟨108, _⟩ => ⟨S1x2, .f32⟩
  | .hbm, ⟨109, _⟩ => ⟨S64x2, .f32⟩
  | .local _ .vmem, ⟨0, _⟩ => ⟨S10000x32, .f32⟩
  | .local _ .vmem, ⟨1, _⟩ => ⟨S10000x32, .f32⟩
  | .local _ .vmem, ⟨2, _⟩ => ⟨S32x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S64x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S10000x32, .f32⟩
  | .local _ .vmem, ⟨15, _⟩ => ⟨S10000x32, .f32⟩
  | .local _ .vmem, ⟨16, _⟩ => ⟨S64x32, .f32⟩
  | .local _ .vmem, ⟨17, _⟩ => ⟨S32x2, .f32⟩
  | .local _ .vmem, ⟨18, _⟩ => ⟨S1x2, .f32⟩
  | .local _ .vmem, ⟨19, _⟩ => ⟨S64x2, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v10 : Ref sig .tc := ⟨.hbm, 25, rfl⟩
abbrev main_cst_2 : Ref sig .tc := ⟨.hbm, 26, rfl⟩
abbrev main_v11 : Ref sig .tc := ⟨.hbm, 27, rfl⟩
abbrev main_v12 : Ref sig .tc := ⟨.hbm, 28, rfl⟩
abbrev main_cst_3 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_5 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_6 : Ref sig .tc := ⟨.hbm, 45, rfl⟩
abbrev main_v23 : Ref sig .tc := ⟨.hbm, 46, rfl⟩
abbrev main_v24 : Ref sig .tc := ⟨.hbm, 47, rfl⟩
abbrev main_c_7 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_c_12 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_13 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_15 : Ref sig .tc := ⟨.hbm, 96, rfl⟩
abbrev main_v65 : Ref sig .tc := ⟨.hbm, 97, rfl⟩
abbrev main_cst_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_cst_17 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg3_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc3_sem3_0 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x32 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S32x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  inb_S10000x32_S10000x32_0_0 : ∀ a, (![0, 0] : Fin 2 → Nat) a + S10000x32.size a ≤ S10000x32.size a
  h_S10000x32 : 0 < S10000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  shapeCasts_S2_S1x2 : S2.ShapeCasts S1x2
  shapeCasts_S64x32_S64x32 : S64x32.ShapeCasts S64x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S10000x32_S32x64_S10000x64_1_0_0_1_n_n_wf : DotDims.WF S10000x32 S32x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x32_S10000x32_1_0_0_1_n_n_wf : DotDims.WF S10000x64 S64x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x2_S64x2_1_0_0_1_n_n_wf : DotDims.WF S64x32 S32x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x32.size a ≤ S64x32.size a
  hwx1_2 : ∀ i : grid1.Coords, EltTy.bits .f32 = 32 ∨ (Rect.block (s := S64x32) S64x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x32.size a ≤ S64x32.size a
  hwx3_0 : ∀ i : grid3.Coords, EltTy.bits .f32 = 32 ∨ (Rect.block (s := S64x32) S64x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x2.size a ≤ S32x2.size a
  hwx3_1 : ∀ i : grid3.Coords, EltTy.bits .f32 = 32 ∨ (Rect.block (s := S32x2) S32x2.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x2.size a ≤ S1x2.size a
  hwx3_2 : ∀ i : grid3.Coords, EltTy.bits .f32 = 32 ∨ (Rect.block (s := S1x2) S1x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x2.size a ≤ S64x2.size a
  hwx3_3 : ∀ i : grid3.Coords, EltTy.bits .f32 = 32 ∨ (Rect.block (s := S64x2) S64x2.size (cc3_transform_3 i) (hinb3_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S64x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v73) S64x32.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S32x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v74) S1x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S64x2.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1600000 : Shape := ⟨2, ![2, 1600000]⟩
abbrev S1600000 : Shape := ⟨1, ![1600000]⟩
abbrev S100000 : Shape := ⟨1, ![100000]⟩
abbrev S32x64 : Shape := ⟨2, ![32, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S1x1600000 : Shape := ⟨2, ![1, 1600000]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1600000x32 : Shape := ⟨2, ![1600000, 32]⟩
abbrev S1x32 : Shape := ⟨2, ![1, 32]⟩
abbrev S100000x1 : Shape := ⟨2, ![100000, 1]⟩
abbrev S64x1 : Shape := ⟨2, ![64, 1]⟩
abbrev S64x2 : Shape := ⟨2, ![64, 2]⟩
abbrev S1x2 : Shape := ⟨2, ![1, 2]⟩

abbrev nBuf : Space → Nat
  | .hbm => 172
  | .vmem => 0
  | .smem => 0
  | _ => 0

abbrev hbmTy0_0 (i : Nat) : BufTy := match i % 128 with
  | 0 => ⟨S100000x32, .f32⟩
  | 1 => ⟨S2x1600000, .i32⟩
  | 2 => ⟨S1600000, .f32⟩
  | 3 => ⟨S100000, .i32⟩
  | 4 => ⟨S32x64, .f32⟩
  | 5 => ⟨S64, .f32⟩
  | 6 => ⟨S64x32, .f32⟩
  | 7 => ⟨S32, .f32⟩
  | 8 => ⟨S32x2, .f32⟩
  | 9 => ⟨S2, .f32⟩
  | 10 => ⟨S1x1600000, .i32⟩
  | 11 => ⟨S1600000, .i32⟩
  | 12 => ⟨S1x1600000, .i32⟩
  | 13 => ⟨S1600000, .i32⟩
  | 14 => ⟨S100000x64, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S_, .f32⟩
  | 34 => ⟨S_, .f32⟩
  | 35 => ⟨S100000, .f32⟩
  | 36 => ⟨S100000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000, .f32⟩
  | 55 => ⟨S1600000, .f32⟩
  | 56 => ⟨S1600000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x64, .f32⟩
  | 66 => ⟨S1600000x64, .f32⟩
  | 67 => ⟨S1600000x64, .f32⟩
  | 68 => ⟨S_, .f32⟩
  | 69 => ⟨S100000x64, .f32⟩
  | 70 => ⟨S1600000x1, .i32⟩
  | 71 => ⟨S100000x64, .f32⟩
  | 72 => ⟨S1x64, .f32⟩
  | 73 => ⟨S100000x64, .f32⟩
  | 74 => ⟨S100000x64, .f32⟩
  | 75 => ⟨S_, .f32⟩
  | 76 => ⟨S_, .f32⟩
  | 77 => ⟨S100000x64, .f32⟩
  | 78 => ⟨S100000x64, .i1⟩
  | 79 => ⟨S_, .f32⟩
  | 80 => ⟨S100000x64, .f32⟩
  | 81 => ⟨S100000x64, .f32⟩
  | 82 => ⟨S100000x64, .f32⟩
  | 83 => ⟨S100000x32, .f32⟩
  | 84 => ⟨S1600000, .f32⟩
  | 85 => ⟨S_, .f32⟩
  | 86 => ⟨S100000, .f32⟩
  | 87 => ⟨S1600000x1, .i32⟩
  | 88 => ⟨S100000, .f32⟩
  | 89 => ⟨S_, .f32⟩
  | 90 => ⟨S100000, .f32⟩
  | 91 => ⟨S100000, .i1⟩
  | 92 => ⟨S_, .f32⟩
  | 93 => ⟨S_, .f32⟩
  | 94 => ⟨S100000, .f32⟩
  | 95 => ⟨S100000, .f32⟩
  | 96 => ⟨S_, .f32⟩
  | 97 => ⟨S100000, .f32⟩
  | 98 => ⟨S100000, .i1⟩
  | 99 => ⟨S_, .f32⟩
  | 100 => ⟨S100000, .f32⟩
  | 101 => ⟨S100000, .f32⟩
  | 102 => ⟨S_, .f32⟩
  | 103 => ⟨S_, .f32⟩
  | 104 => ⟨S100000, .f32⟩
  | 105 => ⟨S100000, .f32⟩
  | 106 => ⟨S_, .i32⟩
  | 107 => ⟨S1600000, .i32⟩
  | 108 => ⟨S1600000, .i1⟩
  | 109 => ⟨S_, .i32⟩
  | 110 => ⟨S1600000, .i32⟩
  | 111 => ⟨S1600000, .i32⟩
  | 112 => ⟨S1600000, .i32⟩
  | 113 => ⟨S1600000x1, .i32⟩
  | 114 => ⟨S1600000, .f32⟩
  | 115 => ⟨S_, .i32⟩
  | 116 => ⟨S1600000, .i32⟩
  | 117 => ⟨S1600000, .i1⟩
  | 118 => ⟨S_, .i32⟩
  | 119 => ⟨S1600000, .i32⟩
  | 120 => ⟨S1600000, .i32⟩
  | 121 => ⟨S1600000, .i32⟩
  | 122 => ⟨S1600000x1, .i32⟩
  | 123 => ⟨S1600000, .f32⟩
  | 124 => ⟨S1600000, .f32⟩
  | 125 => ⟨S1600000x1, .f32⟩
  | 126 => ⟨S_, .i32⟩
  | 127 => ⟨S1600000, .i32⟩
  | _ => ⟨S100000x32, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x32, .f32⟩
  | 7 => ⟨S1600000x32, .f32⟩
  | 8 => ⟨S1600000x32, .f32⟩
  | 9 => ⟨S_, .f32⟩
  | 10 => ⟨S100000x32, .f32⟩
  | 11 => ⟨S1600000x1, .i32⟩
  | 12 => ⟨S100000x32, .f32⟩
  | 13 => ⟨S1x32, .f32⟩
  | 14 => ⟨S100000x32, .f32⟩
  | 15 => ⟨S100000x32, .f32⟩
  | 16 => ⟨S_, .f32⟩
  | 17 => ⟨S_, .f32⟩
  | 18 => ⟨S100000x32, .f32⟩
  | 19 => ⟨S100000x32, .i1⟩
  | 20 => ⟨S_, .f32⟩
  | 21 => ⟨S100000x32, .f32⟩
  | 22 => ⟨S100000x32, .f32⟩
  | 23 => ⟨S100000x32, .f32⟩
  | 24 => ⟨S_, .f32⟩
  | 25 => ⟨S64x32, .f32⟩
  | 26 => ⟨S100000x1, .i32⟩
  | 27 => ⟨S64x32, .f32⟩
  | 28 => ⟨S_, .f32⟩
  | 29 => ⟨S100000, .f32⟩
  | 30 => ⟨S_, .f32⟩
  | 31 => ⟨S64, .f32⟩
  | 32 => ⟨S100000x1, .i32⟩
  | 33 => ⟨S64, .f32⟩
  | 34 => ⟨S_, .f32⟩
  | 35 => ⟨S64, .f32⟩
  | 36 => ⟨S64, .f32⟩
  | 37 => ⟨S64x1, .f32⟩
  | 38 => ⟨S64x32, .f32⟩
  | 39 => ⟨S64x32, .f32⟩
  | 40 => ⟨S64x2, .f32⟩
  | 41 => ⟨S1x2, .f32⟩
  | 42 => ⟨S64x2, .f32⟩
  | 43 => ⟨S64x2, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_cst_2 : Ref sig .tc := ⟨.hbm, 27, rfl⟩
abbrev main_v12 : Ref sig .tc := ⟨.hbm, 28, rfl⟩
abbrev main_v13 : Ref sig .tc := ⟨.hbm, 29, rfl⟩
abbrev main_cst_3 : Ref sig .tc := ⟨.hbm, 30, rfl⟩
abbrev main_v14 : Ref sig .tc := ⟨.hbm, 31, rfl⟩
abbrev main_v15 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_6 : Ref sig .tc := ⟨.hbm, 46, rfl⟩
abbrev main_v24 : Ref sig .tc := ⟨.hbm, 47, rfl⟩
abbrev main_v25 : Ref sig .tc := ⟨.hbm, 48, rfl⟩
abbrev main_c_7 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_c_8 : Ref sig .tc := ⟨.hbm, 57, rfl⟩
abbrev main_v33 : Ref sig .tc := ⟨.hbm, 58, rfl⟩
abbrev main_v34 : Ref sig .tc := ⟨.hbm, 59, rfl⟩
abbrev main_c_9 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_10 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_11 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_cst_12 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_13 : Ref sig .tc := ⟨.hbm, 89, rfl⟩
abbrev main_v54 : Ref sig .tc := ⟨.hbm, 90, rfl⟩
abbrev main_v55 : Ref sig .tc := ⟨.hbm, 91, rfl⟩
abbrev main_cst_14 : Ref sig .tc := ⟨.hbm, 92, rfl⟩
abbrev main_call3_v0 : Ref sig .tc := ⟨.hbm, 93, rfl⟩
abbrev main_call3_v1 : Ref sig .tc := ⟨.hbm, 94, rfl⟩
abbrev main_v56 : Ref sig .tc := ⟨.hbm, 95, rfl⟩
abbrev main_cst_15 : Ref sig .tc := ⟨.hbm, 96, rfl⟩
abbrev main_v57 : Ref sig .tc := ⟨.hbm, 97, rfl⟩
abbrev main_v58 : Ref sig .tc := ⟨.hbm, 98, rfl⟩
abbrev main_cst_16 : Ref sig .tc := ⟨.hbm, 99, rfl⟩
abbrev main_v59 : Ref sig .tc := ⟨.hbm, 100, rfl⟩
abbrev main_v60 : Ref sig .tc := ⟨.hbm, 101, rfl⟩
abbrev main_cst_17 : Ref sig .tc := ⟨.hbm, 102, rfl⟩
abbrev main_call4_v0 : Ref sig .tc := ⟨.hbm, 103, rfl⟩
abbrev main_call4_v1 : Ref sig .tc := ⟨.hbm, 104, rfl⟩
abbrev main_v61 : Ref sig .tc := ⟨.hbm, 105, rfl⟩
abbrev main_c_18 : Ref sig .tc := ⟨.hbm, 106, rfl⟩
abbrev main_v62 : Ref sig .tc := ⟨.hbm, 107, rfl⟩
abbrev main_v63 : Ref sig .tc := ⟨.hbm, 108, rfl⟩
abbrev main_c_19 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_c_20 : Ref sig .tc := ⟨.hbm, 115, rfl⟩
abbrev main_v69 : Ref sig .tc := ⟨.hbm, 116, rfl⟩
abbrev main_v70 : Ref sig .tc := ⟨.hbm, 117, rfl⟩
abbrev main_c_21 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_c_22 : Ref sig .tc := ⟨.hbm, 126, rfl⟩
abbrev main_v78 : Ref sig .tc := ⟨.hbm, 127, rfl⟩
abbrev main_v79 : Ref sig .tc := ⟨.hbm, 128, rfl⟩
abbrev main_c_23 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_cst_24 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_cst_25 : Ref sig .tc := ⟨.hbm, 144, rfl⟩
abbrev main_call5_cst : Ref sig .tc := ⟨.hbm, 145, rfl⟩
abbrev main_call5_v0 : Ref sig .tc := ⟨.hbm, 146, rfl⟩
abbrev main_call5_v1 : Ref sig .tc := ⟨.hbm, 147, rfl⟩
abbrev main_call5_v2 : Ref sig .tc := ⟨.hbm, 148, rfl⟩
abbrev main_call5_v3 : Ref sig .tc := ⟨.hbm, 149, rfl⟩
abbrev main_call5_v4 : Ref sig .tc := ⟨.hbm, 150, rfl⟩
abbrev main_v93 : Ref sig .tc := ⟨.hbm, 151, rfl⟩
abbrev main_cst_26 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_27 : Ref sig .tc := ⟨.hbm, 156, rfl⟩
abbrev main_v97 : Ref sig .tc := ⟨.hbm, 157, rfl⟩
abbrev main_cst_28 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_cst_29 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S64x32 : S_.BroadcastsInDim S64x32 (![] : Fin 0 → Fin S64x32.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S100000x32_S32x64_S100000x64_1_0_0_1_n_n_wf : DotDims.WF S100000x32 S32x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x32_S100000x32_1_0_0_1_n_n_wf : DotDims.WF S100000x64 S64x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S64x32_S100000x1_S100000x32_1_0_0_1_wf : ScatterDims.WF S64x32 S100000x1 S100000x32 [1] [0] [0] 1
  scatter_S64_S100000x1_S100000_n_0_0_1_wf : ScatterDims.WF S64 S100000x1 S100000 [] [0] [0] 1
  dot_S64x32_S32x2_S64x2_1_0_0_1_n_n_wf : DotDims.WF S64x32 S32x2 S64x2 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S64x32_S100000x1_S100000x32_1_0_0_1 : ScatterDims S64x32 S100000x1 S100000x32 where
  updateWindowDims := [1]
  insertedWindowDims := [0]
  scatterDimsToOperandDims := [0]
  indexVectorDim := 1
  wf := scatter_S64x32_S100000x1_S100000x32_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x32_S32x2_S64x2_1_0_0_1_n_n : DotDims S64x32 S32x2 S64x2 where
  lhsContracting := [1]
  rhsContracting := [0]
  lhsNonContracting := [0]
  rhsNonContracting := [1]
  lhsBatch := []
  rhsBatch := []
  wf := dot_S64x32_S32x2_S64x2_1_0_0_1_n_n_wf

class Facts : Prop extends Facts₀ where

variable [Facts]
-- ==== Proof.Spec.lean ====
/-
  The graph network both programs compute, stage by stage, as functions of whole arrays over any float
  instance. Each stage is written with the reference program's own operations, so that the reference's
  result is these stages composed by definition, and the kernel's result is the same composition once
  each of its four dense stages (two linear maps fused with their activations, one activation, the
  output head) is shown to be the corresponding stage here.

  Notation: N = 100000 nodes, E = 1600000 edges; an edge e has a source s(e) and a target d(e) (rows 0
  and 1 of the edge table) and a weight w(e).
    deg(v)   = sum of |w(e)| over the edges with s(e) = v
    dis(v)   = deg(v)^(-1/2) if deg(v) > 0, else 0
    nrm(e)   = dis(s(e)) * dis(d(e))
    agg(h)(v) = sum over the edges with d(e) = v of nrm(e) * h(s(e))      (one row per node)
    act(z)   = z if z >= 0, else c * z                                   (c the slope literal)
    pool(h)(g) = (sum of h(v) over the nodes of graph g) / max(count(g), 1)
  and the result is  pool(act(agg(act(agg(x W1) + b1) W2) + b2)) Wm + bm.
-/
import proofs.«139496_j11227044512441_1_alg».proof.ReferenceIdeal
import Idealize.ShloMosaic.PureOps.Ideal

noncomputable section

namespace Cert.Spec

open Idealize.ShloMosaic Cert.ReferenceIdeal

variable {F : FTy → Type} [FloatOps F] [Facts₀]

open Facts₀

/-- The contents of a buffer of shape `S` and element type `e`. -/
abbrev Arr (F : FTy → Type) (S : Shape) (e : EltTy) : Type := (⟨S, e⟩ : BufTy).Contents (Elt F)

/-! ## The edge table and the degree normalisation -/

/-- The sources: row 0 of the edge table, flat. -/
def srcOf (ei : Arr F S2x1600000 .i32) : Arr F S1600000 .i32 :=
  fun i => shapeCast S1600000 (extractStridedSlice S1x1600000 ![0, 0] ei slices_S2x1600000_S1x1600000_0_0) shapeCasts_S1x1600000_S1600000 i

/-- The targets: row 1 of the edge table, flat. -/
def dstOf (ei : Arr F S2x1600000 .i32) : Arr F S1600000 .i32 :=
  fun i => shapeCast S1600000 (extractStridedSlice S1x1600000 ![1, 0] ei slices_S2x1600000_S1x1600000_1_0) shapeCasts_S1x1600000_S1600000 i

/-- A node index as a gather reads it: a negative index counts from the end; then one column. -/
def gatherIdx (r : Arr F S1600000 .i32) : Arr F S1600000x1 .i32 :=
  broadcastInDim S1600000x1 ![0] bcast_S1600000_S1600000x1_0
    (select (cmpi .slt r (broadcastInDim S1600000 ![] bcast_S_S1600000 (constantI S_ 32 0#32)))
      (addi r (broadcastInDim S1600000 ![] bcast_S_S1600000 (constantI S_ 32 100000#32))) r)

/-- A node index as a scatter reads it: one column, unchanged. -/
def scatterIdx (r : Arr F S1600000 .i32) : Arr F S1600000x1 .i32 :=
  broadcastInDim S1600000x1 ![0] bcast_S1600000_S1600000x1_0 r

/-- deg(v): the absolute edge weights summed at their sources. -/
def degOf (src : Arr F S1600000 .i32) (ew : Arr F S1600000 .f32) : Arr F S100000 .f32 :=
  Host.scatterAdd scatter_S100000_S1600000x1_S1600000_n_0_0_1
    (broadcastInDim S100000 ![] bcast_S_S100000 (constant S_ .f32 0x00000000#32)) (scatterIdx src) (Host.absf ew)

/-- `where(c, a, s)` with a scalar alternative `s`. -/
def whereScalar (c : Arr F S100000 .i1) (a : Arr F S100000 .f32) (s : Arr F S_ .f32) : Arr F S100000 .f32 :=
  select c a (broadcastInDim S100000 ![] bcast_S_S100000 (id s))

/-- dis(v) = deg(v)^(-1/2) where deg(v) > 0, else 0. -/
def disOf (deg : Arr F S100000 .f32) : Arr F S100000 .f32 :=
  whereScalar (cmpf .ogt deg (broadcastInDim S100000 ![] bcast_S_S100000 (constant S_ .f32 0x00000000#32)))
    (Host.powf
      (whereScalar (cmpf .ogt deg (broadcastInDim S100000 ![] bcast_S_S100000 (constant S_ .f32 0x00000000#32))) deg
        (constant S_ .f32 0x3F800000#32))
      (broadcastInDim S100000 ![] bcast_S_S100000 (constant S_ .f32 0xBF000000#32)))
    (constant S_ .f32 0x00000000#32)

/-- nrm(e) = dis(s(e)) * dis(d(e)). -/
def normOf (src dst : Arr F S1600000 .i32) (ew : Arr F S1600000 .f32) : Arr F S1600000 .f32 :=
  mulf (Host.gather gather_S100000_S1600000x1_S1600000_n_0_n_n_0_1_1 (disOf (degOf src ew)) (gatherIdx src))
    (Host.gather gather_S100000_S1600000x1_S1600000_n_0_n_n_0_1_1 (disOf (degOf src ew)) (gatherIdx dst))

/-! ## Message passing -/

/-- agg(h)(v) at width 64: the rows h(s(e)) scaled by nrm(e) and summed at d(e). -/
def agg64 (src dst : Arr F S1600000 .i32) (nrm : Arr F S1600000 .f32) (h : Arr F S100000x64 .f32) : Arr F S100000x64 .f32 :=
  Host.scatterAdd scatter_S100000x64_S1600000x1_S1600000x64_1_0_0_1
    (broadcastInDim S100000x64 ![] bcast_S_S100000x64 (constant S_ .f32 0x00000000#32)) (scatterIdx dst)
    (mulf (broadcastInDim S1600000x64 ![0, 1] bcast_S1600000x1_S1600000x64_0_1 (broadcastInDim S1600000x1 ![0] bcast_S1600000_S1600000x1_0 nrm))
      (Host.gather gather_S100000x64_S1600000x1_S1600000x64_1_0_n_n_0_1_164 h (gatherIdx src)))

/-- agg(h)(v) at width 32. -/
def agg32 (src dst : Arr F S1600000 .i32) (nrm : Arr F S1600000 .f32) (h : Arr F S100000x32 .f32) : Arr F S100000x32 .f32 :=
  Host.scatterAdd scatter_S100000x32_S1600000x1_S1600000x32_1_0_0_1
    (broadcastInDim S100000x32 ![] bcast_S_S100000x32 (constant S_ .f32 0x00000000#32)) (scatterIdx dst)
    (mulf (broadcastInDim S1600000x32 ![0, 1] bcast_S1600000x1_S1600000x32_0_1 (broadcastInDim S1600000x1 ![0] bcast_S1600000_S1600000x1_0 nrm))
      (Host.gather gather_S100000x32_S1600000x1_S1600000x32_1_0_n_n_0_1_132 h (gatherIdx src)))

/-! ## The dense stages -/

/-- x W1. -/
def lin1 (x : Arr F S100000x32 .f32) (w : Arr F S32x64 .f32) : Arr F S100000x64 .f32 :=
  Host.dotGeneral dot_S100000x32_S32x64_S100000x64_1_0_0_1_n_n none x w

/-- a W2. -/
def lin2 (a : Arr F S100000x64 .f32) (w : Arr F S64x32 .f32) : Arr F S100000x32 .f32 :=
  Host.dotGeneral dot_S100000x64_S64x32_S100000x32_1_0_0_1_n_n none a w

/-- act(z) at width 64, `c` the slope as a scalar. -/
def leaky64 (z : Arr F S100000x64 .f32) (c : Arr F S_ .f32) : Arr F S100000x64 .f32 :=
  select (cmpf .oge z (broadcastInDim S100000x64 ![] bcast_S_S100000x64 (constant S_ .f32 0x00000000#32))) z
    (mulf (broadcastInDim S100000x64 ![] bcast_S_S100000x64 (id c)) z)

/-- act(z) at width 32. -/
def leaky32 (z : Arr F S100000x32 .f32) (c : Arr F S_ .f32) : Arr F S100000x32 .f32 :=
  select (cmpf .oge z (broadcastInDim S100000x32 ![] bcast_S_S100000x32 (constant S_ .f32 0x00000000#32))) z
    (mulf (broadcastInDim S100000x32 ![] bcast_S_S100000x32 (id c)) z)

/-- act(s + b) at width 64 with the bias given as one row. -/
def act64r (s : Arr F S100000x64 .f32) (brow : Arr F S1x64 .f32) : Arr F S100000x64 .f32 :=
  leaky64 (addf s (broadcastInDim S100000x64 ![0, 1] bcast_S1x64_S100000x64_0_1 brow)) (constant S_ .f32 0x3C23D70A#32)

/-- act(s + b) at width 32 with the bias given as one row. -/
def act32r (s : Arr F S100000x32 .f32) (brow : Arr F S1x32 .f32) : Arr F S100000x32 .f32 :=
  leaky32 (addf s (broadcastInDim S100000x32 ![0, 1] bcast_S1x32_S100000x32_0_1 brow)) (constant S_ .f32 0x3C23D70A#32)

/-- p Wm + bm with the bias given as one row. -/
def headr (p : Arr F S64x32 .f32) (w : Arr F S32x2 .f32) (brow : Arr F S1x2 .f32) : Arr F S64x2 .f32 :=
  addf (Host.dotGeneral dot_S64x32_S32x2_S64x2_1_0_0_1_n_n none p w) (broadcastInDim S64x2 ![0, 1] bcast_S1x2_S64x2_0_1 brow)

/-- A bias vector as one row. -/
def row64 (b : Arr F S64 .f32) : Arr F S1x64 .f32 := broadcastInDim S1x64 ![1] bcast_S64_S1x64_1 b
def row32 (b : Arr F S32 .f32) : Arr F S1x32 .f32 := broadcastInDim S1x32 ![1] bcast_S32_S1x32_1 b
def row2 (b : Arr F S2 .f32) : Arr F S1x2 .f32 := broadcastInDim S1x2 ![1] bcast_S2_S1x2_1 b

/-! ## Pooling -/

/-- pool(h)(g): the rows of each graph summed, over the larger of the graph's node count and one. -/
def pool (batch : Arr F S100000 .i32) (h : Arr F S100000x32 .f32) : Arr F S64x32 .f32 :=
  Host.divf
    (Host.scatterAdd scatter_S64x32_S100000x1_S100000x32_1_0_0_1
      (broadcastInDim S64x32 ![] bcast_S_S64x32 (constant S_ .f32 0x00000000#32))
      (broadcastInDim S100000x1 ![0] bcast_S100000_S100000x1_0 batch) h)
    (broadcastInDim S64x32 ![0, 1] bcast_S64x1_S64x32_0_1 (broadcastInDim S64x1 ![0] bcast_S64_S64x1_0
      (maximumf
        (Host.scatterAdd scatter_S64_S100000x1_S100000_n_0_0_1
          (broadcastInDim S64 ![] bcast_S_S64 (constant S_ .f32 0x00000000#32))
          (broadcastInDim S100000x1 ![0] bcast_S100000_S100000x1_0 batch)
          (broadcastInDim S100000 ![] bcast_S_S100000 (constant S_ .f32 0x3F800000#32)))
        (broadcastInDim S64 ![] bcast_S_S64 (constant S_ .f32 0x3F800000#32)))))

/-! ## The whole network -/

/-- The result as one function of the ten argument arrays. -/
def net (x : Arr F S100000x32 .f32) (ei : Arr F S2x1600000 .i32) (ew : Arr F S1600000 .f32) (batch : Arr F S100000 .i32)
    (w1 : Arr F S32x64 .f32) (b1 : Arr F S64 .f32) (w2 : Arr F S64x32 .f32) (b2 : Arr F S32 .f32)
    (wm : Arr F S32x2 .f32) (bm : Arr F S2 .f32) : Arr F S64x2 .f32 :=
  headr
    (pool batch
      (act32r
        (agg32 (srcOf ei) (dstOf ei) (normOf (srcOf ei) (dstOf ei) ew)
          (lin2 (act64r (agg64 (srcOf ei) (dstOf ei) (normOf (srcOf ei) (dstOf ei) ew) (lin1 x w1)) (row64 b1)) w2))
        (row32 b2)))
    wm (row2 bm)

end Cert.Spec

end
-- ==== Proof.KerRun.lean ====
/-
  The idealized kernel's run with its result array named. The program is twelve segments in order: five
  stretches of host operations, then each of the four dense stages as a pipelined region, a stretch of host
  operations before each of the last three. Run from any memory with zero counters, every weakly fair
  execution terminates without a fault, and every final state holds, at each buffer that outlives the call,
  the contents the segments' fold leaves there: the result buffer at the fold's value, each argument array at
  its launch contents. What that value IS, as a function of the arguments, is read off the fold elsewhere.
-/
import proofs.«139496_j11227044512441_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program ends with the result buffer at the last boundary's contents
    and the ten argument arrays as launched: the segments' chain from the launch state, the last thread
    state read against the final memory, each argument walked back through the fold to the launch. -/
theorem run : θ_run defs (onTc (τ := τ) (main (F := F))) ⟨m, fun _ => 0, ρ⟩ (fun r => ∀ c : Dev nD,
      r.2.mem ((c.tc : Thread nD τ).loc main_v75) = W12 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v75 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c)⟩)

end Cert.KernelIdeal.NamedRun

end
-- ==== Proof.LibAfterResultsCat.lean ====
/-
  Evaluating a straight-line host program's operations past a concatenation.

  What a buffer holds after a list of host operations is a fold; the library evaluates it in one rewriting pass, operation by operation.
  A concatenation takes its operands as a LIST of (shape, vector) pairs, and the pass does not rewrite under such pairs: whatever is
  looked up inside them stays a fold over all the earlier operations. Stated as ordinary functions of two or three vectors, a
  concatenation's operands are rewritten like any other's. The equations are definitional; the pass applies them on the way down,
  before it visits the operands.
-/
import Idealize.ShloMosaic.Lib.StableHlo.Run

noncomputable section

namespace Idealize.ShloMosaic.StableHlo

open Idealize.ShloMosaic

/-- A concatenation of two vectors as a function of the two. -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- A concatenation of three vectors as a function of the three. -/
def cat3 {α : Type} (t : Shape) (a : Fin t.rank) (s₁ s₂ s₃ : Shape) (h : Shape.Concatenates [s₁, s₂, s₃] t a)
    (x : s₁.Idx → α) (y : s₂.Idx → α) (z : s₃.Idx → α) : t.Idx → α :=
  concatenate t a [⟨s₁, x⟩, ⟨s₂, y⟩, ⟨s₃, z⟩] h

theorem concatenate_triple {α : Type} (t : Shape) (a : Fin t.rank) (s₁ s₂ s₃ : Shape) (h : Shape.Concatenates [s₁, s₂, s₃] t a)
    (x : s₁.Idx → α) (y : s₂.Idx → α) (z : s₃.Idx → α) :
    concatenate t a [⟨s₁, x⟩, ⟨s₂, y⟩, ⟨s₃, z⟩] h = cat3 t a s₁ s₂ s₃ h x y z := rfl

/-- The one-pass evaluation of an operation list's results, concatenations' operands included. -/
macro "after_results_cat" : tactic =>
  `(tactic| (simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', ↓concatenate_pair, ↓concatenate_triple]))

/-- The operations of a function the program calls carry their values through casts along the equality of a buffer's type with
    the value's type; the two types are the same once the buffer is a literal, and the casts then go. To be run after
    `after_results_cat`, and on one call's operations at a time, over whatever the buffers held before: each cast
    removed is a rewrite inside the whole term, so the smaller the term around it the better. -/
macro "after_results_strip" : tactic =>
  `(tactic| (simp only [TRef.toBuf, TRef.ofBuf, cast_eq]))

end Idealize.ShloMosaic.StableHlo

end
-- ==== Proof.KerStretch.lean ====
/-
  The kernel program's host operations between its four dense stages, one stretch at a time: what each stretch
  leaves in the buffers the later stages read, as the network's named stages (the edge table's two rows, the
  degrees, the normalisation, the two aggregations, the pooling) of what the buffers held when the stretch
  began. Every statement is over arbitrary starting contents, so each reads only the few operations of its
  own stretch; they are chained along the program elsewhere. The kernel's operations are the reference's,
  operation for operation and literal for literal, so each statement holds by unfolding.
-/
import proofs.«139496_j11227044512441_1_alg».proof.Proof.Gen.KernelIdeal.Launch
import proofs.«139496_j11227044512441_1_alg».proof.Proof.Gen.ReferenceIdeal
import proofs.«139496_j11227044512441_1_alg».proof.Proof.Spec
import proofs.«139496_j11227044512441_1_alg».proof.Proof.LibAfterResultsCat
import Idealize.ShloMosaic.Lib.StableHlo.Run

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo

variable {F : FTy → Type} [FloatOps F]
variable (V : Valuation τ sig (Elt F))

/-! ## Before the first dense stage: the edge table, the degrees, the normalisation -/

/-- The sources are row 0 of the edge table. -/
theorem s0_src : after hostOps0 V (Proc.devRef .tc main_v1) = Cert.Spec.srcOf (V (Proc.devRef .tc main_arg1)) := by
  after_results_simp; rfl

/-- The targets are row 1 of the edge table. -/
theorem s0_dst : after hostOps0 V (Proc.devRef .tc main_v3) = Cert.Spec.dstOf (V (Proc.devRef .tc main_arg1)) := by
  after_results_simp; rfl

/-- The degrees: the absolute weights summed at the sources. -/
theorem s0_deg : after hostOps0 V (Proc.devRef .tc main_v7)
    = Cert.Spec.degOf (Cert.Spec.srcOf (V (Proc.devRef .tc main_arg1))) (V (Proc.devRef .tc main_arg2)) := by
  after_results_simp; rfl

/-- Where the degree is positive. -/
theorem s0_pos : after hostOps0 V (Proc.devRef .tc main_v9)
    = cmpf .ogt (Cert.Spec.degOf (Cert.Spec.srcOf (V (Proc.devRef .tc main_arg1))) (V (Proc.devRef .tc main_arg2)))
        (broadcastInDim Cert.ReferenceIdeal.S100000 ![] Cert.ReferenceIdeal.Gen.bcast_S_S100000 (constant Cert.ReferenceIdeal.S_ .f32 0x00000000#32)) := by
  after_results_simp; rfl

/-- The scalar one. -/
theorem s0_one : after hostOps0 V (Proc.devRef .tc main_cst_1) = constant Cert.ReferenceIdeal.S_ .f32 0x3F800000#32 := by
  after_results_simp

/-- The degree where positive, else one. -/
theorem s01_safe : after hostOps0_1 V (Proc.devRef .tc main_v10)
    = Cert.Spec.whereScalar (V (Proc.devRef .tc main_v9)) (V (Proc.devRef .tc main_v7)) (V (Proc.devRef .tc main_cst_1)) := by
  after_results_simp; after_results_strip; rfl

/-- Where the degree is positive, again. -/
theorem s02_pos : after hostOps0_2 V (Proc.devRef .tc main_v12)
    = cmpf .ogt (V (Proc.devRef .tc main_v7))
        (broadcastInDim Cert.ReferenceIdeal.S100000 ![] Cert.ReferenceIdeal.Gen.bcast_S_S100000 (constant Cert.ReferenceIdeal.S_ .f32 0x00000000#32)) := by
  after_results_simp

/-- The safe degree to the power -1/2. -/
theorem s02_pow : after hostOps0_2 V (Proc.devRef .tc main_v14)
    = Host.powf (V (Proc.devRef .tc main_v10))
        (broadcastInDim Cert.ReferenceIdeal.S100000 ![] Cert.ReferenceIdeal.Gen.bcast_S_S100000 (constant Cert.ReferenceIdeal.S_ .f32 0xBF000000#32)) := by
  after_results_simp

/-- The scalar zero. -/
theorem s02_zero : after hostOps0_2 V (Proc.devRef .tc main_cst_4) = constant Cert.ReferenceIdeal.S_ .f32 0x00000000#32 := by
  after_results_simp

/-- That power where the degree is positive, else zero. -/
theorem s03_dis : after hostOps0_3 V (Proc.devRef .tc main_v15)
    = Cert.Spec.whereScalar (V (Proc.devRef .tc main_v12)) (V (Proc.devRef .tc main_v14)) (V (Proc.devRef .tc main_cst_4)) := by
  after_results_simp; after_results_strip; rfl

/-- The normalisation of an edge: the product of that factor at its source and at its target. -/
theorem s04_norm : after hostOps0_4 V (Proc.devRef .tc main_v30)
    = mulf (Host.gather Cert.ReferenceIdeal.gather_S100000_S1600000x1_S1600000_n_0_n_n_0_1_1 (V (Proc.devRef .tc main_v15)) (Cert.Spec.gatherIdx (V (Proc.devRef .tc main_v1))))
        (Host.gather Cert.ReferenceIdeal.gather_S100000_S1600000x1_S1600000_n_0_n_n_0_1_1 (V (Proc.devRef .tc main_v15)) (Cert.Spec.gatherIdx (V (Proc.devRef .tc main_v3)))) := by
  after_results_simp; rfl

/-! ## Between the dense stages: aggregation along the edges, and the bias as one row -/

/-- Before the second dense stage: the first stage's rows aggregated along the edges. -/
theorem s1_agg : after hostOps1 V (Proc.devRef .tc main_v44)
    = Cert.Spec.agg64 (V (Proc.devRef .tc main_v1)) (V (Proc.devRef .tc main_v3)) (V (Proc.devRef .tc main_v30)) (V (Proc.devRef .tc main_v31)) := by
  after_results_simp; rfl

/-- The first bias laid out as one row. -/
theorem s1_row : after hostOps1 V (Proc.devRef .tc main_v45)
    = fun i => shapeCast Cert.ReferenceIdeal.S1x64 (V (Proc.devRef .tc main_arg5)) shapeCasts_S64_S1x64 i := by
  after_results_simp; rfl

/-- Before the third dense stage: the second stage's rows aggregated along the edges. -/
theorem s2_agg : after hostOps2 V (Proc.devRef .tc main_v59)
    = Cert.Spec.agg32 (V (Proc.devRef .tc main_v1)) (V (Proc.devRef .tc main_v3)) (V (Proc.devRef .tc main_v30)) (V (Proc.devRef .tc main_v46)) := by
  after_results_simp; rfl

/-- The second bias laid out as one row. -/
theorem s2_row : after hostOps2 V (Proc.devRef .tc main_v60)
    = fun i => shapeCast Cert.ReferenceIdeal.S1x32 (V (Proc.devRef .tc main_arg7)) shapeCasts_S32_S1x32 i := by
  after_results_simp; rfl

/-- Before the last dense stage: the mean over each graph's nodes. -/
theorem s3_pool : after hostOps3 V (Proc.devRef .tc main_v73)
    = Cert.Spec.pool (V (Proc.devRef .tc main_arg3)) (V (Proc.devRef .tc main_v61)) := by
  after_results_simp; rfl

/-- The head's bias laid out as one row. -/
theorem s3_row : after hostOps3 V (Proc.devRef .tc main_v74)
    = fun i => shapeCast Cert.ReferenceIdeal.S1x2 (V (Proc.devRef .tc main_arg9)) shapeCasts_S2_S1x2 i := by
  after_results_simp; rfl

end Cert.KernelIdeal.Stretch

end
-- ==== Proof.KerChainA.lean ====
/-
  What the kernel program's buffers hold when its first dense stage is entered, as the network's named stages
  of the launch contents: the two rows of the edge table, the normalisation of every edge, and each argument
  array untouched. Read off the five opening stretches of host operations one stretch at a time. Also: a bias
  vector laid out as one row by a reshape is the same row a broadcast along the second axis lays out.
-/
import proofs.«139496_j11227044512441_1_alg».proof.Proof.Gen.KernelIdeal.Frame
import proofs.«139496_j11227044512441_1_alg».proof.Proof.Gen.ReferenceIdeal
import proofs.«139496_j11227044512441_1_alg».proof.Proof.Spec
import proofs.«139496_j11227044512441_1_alg».proof.Proof.KerStretch
import Idealize.ShloMosaic.Lib.Pipeline.Value
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-! ## A vector as one row: by reshape and by broadcast -/

/-- [n] laid out as [1, n]: the reshape reads the row at its second coordinate, and so does the broadcast along axis 1. -/
theorem row_eq (n : Nat) (hn : n ≠ 1) (b : (⟨1, ![n]⟩ : Shape).Idx → EReal)
    (h : (⟨1, ![n]⟩ : Shape).ShapeCasts ⟨2, ![1, n]⟩) (h' : (⟨1, ![n]⟩ : Shape).BroadcastsInDim ⟨2, ![1, n]⟩ ![1]) :
    (fun i => shapeCast (⟨2, ![1, n]⟩ : Shape) b h i) = broadcastInDim (⟨2, ![1, n]⟩ : Shape) ![1] h' b := by
  funext j
  refine (shapeCast_addUnit_apply ![n] b h j).trans ?_
  refine (broadcastInDim_apply (s := (⟨1, ![n]⟩ : Shape)) (t := (⟨2, ![1, n]⟩ : Shape)) ![1] h' b j (fun a => j a.succ) (fun a => ?_)).symm
  have ha : a = 0 := Subsingleton.elim _ _
  subst ha
  rw [if_neg (show ¬ ((⟨1, ![n]⟩ : Shape).size 0 = 1) from hn)]
  rfl

variable (m : (ℓ : Loc nD τ sig) → Buf (Elt Ideal) ℓ) (ρ : Dev nD → PrngReg) (c : Dev nD)

/-! ## The named values -/

/-- The sources, the targets, the degrees and the normalisation of the launched edge table and weights. -/
abbrev srcE : Cert.Spec.Arr Ideal Cert.ReferenceIdeal.S1600000 .i32 := Cert.Spec.srcOf (m ((c : Thread nD τ).loc main_arg1))
abbrev dstE : Cert.Spec.Arr Ideal Cert.ReferenceIdeal.S1600000 .i32 := Cert.Spec.dstOf (m ((c : Thread nD τ).loc main_arg1))
abbrev degE : Cert.Spec.Arr Ideal Cert.ReferenceIdeal.S100000 .f32 := Cert.Spec.degOf (srcE m c) (m ((c : Thread nD τ).loc main_arg2))
abbrev nrmE : Cert.Spec.Arr Ideal Cert.ReferenceIdeal.S1600000 .f32 := Cert.Spec.normOf (srcE m c) (dstE m c) (m ((c : Thread nD τ).loc main_arg2))

/-- A buffer that no operation of a stretch writes holds after the stretch what it held before. -/
local macro "keep_through " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## After the first stretch -/

theorem w1_src : W1 m ρ c (Proc.devRef .tc main_v1) = srcE m c := Stretch.s0_src (W0 m ρ c)
theorem w1_dst : W1 m ρ c (Proc.devRef .tc main_v3) = dstE m c := Stretch.s0_dst (W0 m ρ c)
theorem w1_deg : W1 m ρ c (Proc.devRef .tc main_v7) = degE m c := Stretch.s0_deg (W0 m ρ c)
theorem w1_pos : W1 m ρ c (Proc.devRef .tc main_v9)
    = cmpf (F := Ideal) .ogt (degE m c) (broadcastInDim Cert.ReferenceIdeal.S100000 ![] Cert.ReferenceIdeal.Gen.bcast_S_S100000 (constant (F := Ideal) Cert.ReferenceIdeal.S_ .f32 0x00000000#32)) :=
  Stretch.s0_pos (W0 m ρ c)
theorem w1_one : W1 m ρ c (Proc.devRef .tc main_cst_1) = constant (F := Ideal) Cert.ReferenceIdeal.S_ .f32 0x3F800000#32 := Stretch.s0_one (W0 m ρ c)

/-! ## The degree made safe, its power, and the factor dis -/

theorem w2_safe : W2 m ρ c (Proc.devRef .tc main_v10)
    = Cert.Spec.whereScalar (cmpf (F := Ideal) .ogt (degE m c) (broadcastInDim Cert.ReferenceIdeal.S100000 ![] Cert.ReferenceIdeal.Gen.bcast_S_S100000 (constant (F := Ideal) Cert.ReferenceIdeal.S_ .f32 0x00000000#32)))
        (degE m c) (constant (F := Ideal) Cert.ReferenceIdeal.S_ .f32 0x3F800000#32) :=
  (Stretch.s01_safe (W1 m ρ c)).trans (by rw [w1_pos, w1_deg, w1_one])
theorem w2_deg : W2 m ρ c (Proc.devRef .tc main_v7) = degE m c :=
  (by keep_through hostOps0_1 : W2 m ρ c (Proc.devRef .tc main_v7) = W1 m ρ c (Proc.devRef .tc main_v7)).trans (w1_deg m ρ c)

theorem w3_pos : W3 m ρ c (Proc.devRef .tc main_v12)
    = cmpf (F := Ideal) .ogt (degE m c) (broadcastInDim Cert.ReferenceIdeal.S100000 ![] Cert.ReferenceIdeal.Gen.bcast_S_S100000 (constant (F := Ideal) Cert.ReferenceIdeal.S_ .f32 0x00000000#32)) :=
  (Stretch.s02_pos (W2 m ρ c)).trans (by rw [w2_deg])
theorem w3_pow : W3 m ρ c (Proc.devRef .tc main_v14)
    = Host.powf (F := Ideal) (Cert.Spec.whereScalar (cmpf (F := Ideal) .ogt (degE m c) (broadcastInDim Cert.ReferenceIdeal.S100000 ![] Cert.ReferenceIdeal.Gen.bcast_S_S100000 (constant (F := Ideal) Cert.ReferenceIdeal.S_ .f32 0x00000000#32)))
        (degE m c) (constant (F := Ideal) Cert.ReferenceIdeal.S_ .f32 0x3F800000#32))
        (broadcastInDim Cert.ReferenceIdeal.S100000 ![] Cert.ReferenceIdeal.Gen.bcast_S_S100000 (constant (F := Ideal) Cert.ReferenceIdeal.S_ .f32 0xBF000000#32)) :=
  (Stretch.s02_pow (W2 m ρ c)).trans (by rw [w2_safe])
theorem w3_zero : W3 m ρ c (Proc.devRef .tc main_cst_4) = constant (F := Ideal) Cert.ReferenceIdeal.S_ .f32 0x00000000#32 := Stretch.s02_zero (W2 m ρ c)

theorem w4_dis : W4 m ρ c (Proc.devRef .tc main_v15) = Cert.Spec.disOf (degE m c) :=
  (Stretch.s03_dis (W3 m ρ c)).trans (by rw [w3_pos, w3_pow, w3_zero]; rfl)

/-! ## The edge table's rows and the arguments, carried to the first dense stage -/

theorem w4_src : W4 m ρ c (Proc.devRef .tc main_v1) = srcE m c := by
  show StableHlo.after hostOps0_3 (StableHlo.after hostOps0_2 (StableHlo.after hostOps0_1 (W1 m ρ c))) (Proc.devRef .tc main_v1) = _
  rw [show StableHlo.after hostOps0_3 (StableHlo.after hostOps0_2 (StableHlo.after hostOps0_1 (W1 m ρ c))) (Proc.devRef .tc main_v1)
        = StableHlo.after hostOps0_2 (StableHlo.after hostOps0_1 (W1 m ρ c)) (Proc.devRef .tc main_v1) from by keep_through hostOps0_3,
      show StableHlo.after hostOps0_2 (StableHlo.after hostOps0_1 (W1 m ρ c)) (Proc.devRef .tc main_v1)
        = StableHlo.after hostOps0_1 (W1 m ρ c) (Proc.devRef .tc main_v1) from by keep_through hostOps0_2,
      show StableHlo.after hostOps0_1 (W1 m ρ c) (Proc.devRef .tc main_v1) = W1 m ρ c (Proc.devRef .tc main_v1) from by keep_through hostOps0_1]
  exact w1_src m ρ c
theorem w4_dst : W4 m ρ c (Proc.devRef .tc main_v3) = dstE m c := by
  show StableHlo.after hostOps0_3 (StableHlo.after hostOps0_2 (StableHlo.after hostOps0_1 (W1 m ρ c))) (Proc.devRef .tc main_v3) = _
  rw [show StableHlo.after hostOps0_3 (StableHlo.after hostOps0_2 (StableHlo.after hostOps0_1 (W1 m ρ c))) (Proc.devRef .tc main_v3)
        = StableHlo.after hostOps0_2 (StableHlo.after hostOps0_1 (W1 m ρ c)) (Proc.devRef .tc main_v3) from by keep_through hostOps0_3,
      show StableHlo.after hostOps0_2 (StableHlo.after hostOps0_1 (W1 m ρ c)) (Proc.devRef .tc main_v3)
        = StableHlo.after hostOps0_1 (W1 m ρ c) (Proc.devRef .tc main_v3) from by keep_through hostOps0_2,
      show StableHlo.after hostOps0_1 (W1 m ρ c) (Proc.devRef .tc main_v3) = W1 m ρ c (Proc.devRef .tc main_v3) from by keep_through hostOps0_1]
  exact w1_dst m ρ c

theorem w5_src : W5 m ρ c (Proc.devRef .tc main_v1) = srcE m c :=
  (by keep_through hostOps0_4 : W5 m ρ c (Proc.devRef .tc main_v1) = W4 m ρ c (Proc.devRef .tc main_v1)).trans (w4_src m ρ c)
theorem w5_dst : W5 m ρ c (Proc.devRef .tc main_v3) = dstE m c :=
  (by keep_through hostOps0_4 : W5 m ρ c (Proc.devRef .tc main_v3) = W4 m ρ c (Proc.devRef .tc main_v3)).trans (w4_dst m ρ c)

/-- The normalisation of every edge. -/
theorem w5_nrm : W5 m ρ c (Proc.devRef .tc main_v30) = nrmE m c :=
  (Stretch.s04_norm (W4 m ρ c)).trans (by rw [w4_dis, w4_src, w4_dst]; rfl)

theorem w5_arg0 : W5 m ρ c (Proc.devRef .tc main_arg0) = (m ((c : Thread nD τ).loc main_arg0)) := by
  show StableHlo.after hostOps0_4 (StableHlo.after hostOps0_3 (StableHlo.after hostOps0_2 (StableHlo.after hostOps0_1 (StableHlo.after hostOps0 (W0 m ρ c))))) (Proc.devRef .tc main_arg0) = _
  after_results_simp
theorem w5_arg3 : W5 m ρ c (Proc.devRef .tc main_arg3) = (m ((c : Thread nD τ).loc main_arg3)) := by
  show StableHlo.after hostOps0_4 (StableHlo.after hostOps0_3 (StableHlo.after hostOps0_2 (StableHlo.after hostOps0_1 (StableHlo.after hostOps0 (W0 m ρ c))))) (Proc.devRef .tc main_arg3) = _
  after_results_simp
theorem w5_arg4 : W5 m ρ c (Proc.devRef .tc main_arg4) = (m ((c : Thread nD τ).loc main_arg4)) := by
  show StableHlo.after hostOps0_4 (StableHlo.after hostOps0_3 (StableHlo.after hostOps0_2 (StableHlo.after hostOps0_1 (StableHlo.after hostOps0 (W0 m ρ c))))) (Proc.devRef .tc main_arg4) = _
  after_results_simp
theorem w5_arg5 : W5 m ρ c (Proc.devRef .tc main_arg5) = (m ((c : Thread nD τ).loc main_arg5)) := by
  show StableHlo.after hostOps0_4 (StableHlo.after hostOps0_3 (StableHlo.after hostOps0_2 (StableHlo.after hostOps0_1 (StableHlo.after hostOps0 (W0 m ρ c))))) (Proc.devRef .tc main_arg5) = _
  after_results_simp
theorem w5_arg6 : W5 m ρ c (Proc.devRef .tc main_arg6) = (m ((c : Thread nD τ).loc main_arg6)) := by
  show StableHlo.after hostOps0_4 (StableHlo.after hostOps0_3 (StableHlo.after hostOps0_2 (StableHlo.after hostOps0_1 (StableHlo.after hostOps0 (W0 m ρ c))))) (Proc.devRef .tc main_arg6) = _
  after_results_simp
theorem w5_arg7 : W5 m ρ c (Proc.devRef .tc main_arg7) = (m ((c : Thread nD τ).loc main_arg7)) := by
  show StableHlo.after hostOps0_4 (StableHlo.after hostOps0_3 (StableHlo.after hostOps0_2 (StableHlo.after hostOps0_1 (StableHlo.after hostOps0 (W0 m ρ c))))) (Proc.devRef .tc main_arg7) = _
  after_results_simp
theorem w5_arg8 : W5 m ρ c (Proc.devRef .tc main_arg8) = (m ((c : Thread nD τ).loc main_arg8)) := by
  show StableHlo.after hostOps0_4 (StableHlo.after hostOps0_3 (StableHlo.after hostOps0_2 (StableHlo.after hostOps0_1 (StableHlo.after hostOps0 (W0 m ρ c))))) (Proc.devRef .tc main_arg8) = _
  after_results_simp
theorem w5_arg9 : W5 m ρ c (Proc.devRef .tc main_arg9) = (m ((c : Thread nD τ).loc main_arg9)) := by
  show StableHlo.after hostOps0_4 (StableHlo.after hostOps0_3 (StableHlo.after hostOps0_2 (StableHlo.after hostOps0_1 (StableHlo.after hostOps0 (W0 m ρ c))))) (Proc.devRef .tc main_arg9) = _
  after_results_simp

end Cert.KernelIdeal.Chain

end
-- ==== Proof.RegionLib.lean ====
import Idealize.ShloMosaic.Lib.ValueIdx
import Idealize.ShloMosaic.PureOps.Ideal.Laws

noncomputable section

open scoped BigOperators

namespace Cert.KernelIdeal.RegionValue

open Idealize.ShloMosaic Idealize.ShloMosaic.ValueIdx

/-- The zero offsets of a rank-two rectangle, as the constant function. -/
theorem offs_zero : (![0, 0] : Fin 2 → Nat) = fun _ => 0 := funext fun a => by fin_cases a <;> rfl

/-- A contraction over ONE axis of extent n, as the sum over that axis's coordinate: when the left operand's index at
    contraction position kk is li of kk's coordinate and the right operand's is ri of it, the sum of products over the
    contraction positions is the sum over i < n of L (li i) · R (ri i). -/
theorem contraction_sum {sl sr so : Shape} (D : DotDims sl sr so) (n : Nat)
    (hr : D.contr.rank = 1) (hs : D.contr.size ⟨0, by omega⟩ = n)
    (L : sl.Idx → EReal) (R : sr.Idx → EReal) (j : so.Idx) (li : Fin n → sl.Idx) (ri : Fin n → sr.Idx)
    (hl : ∀ kk, D.lhsIdx j kk = li (contrEquiv1 D n hr hs kk))
    (hr' : ∀ kk, D.rhsIdx j kk = ri (contrEquiv1 D n hr hs kk)) :
    ∑ kk : D.contr.Idx, L (D.lhsIdx j kk) * R (D.rhsIdx j kk) = ∑ i : Fin n, L (li i) * R (ri i) :=
  Fintype.sum_equiv (contrEquiv1 D n hr hs) _ _ (fun kk => by rw [hl kk, hr' kk])

end Cert.KernelIdeal.RegionValue

end
-- ==== Proof.Region0.lean ====
import proofs.«139496_j11227044512441_1_alg».proof.Proof.Gen.KernelIdeal.Frame
import proofs.«139496_j11227044512441_1_alg».proof.Proof.Gen.ReferenceIdeal
import proofs.«139496_j11227044512441_1_alg».proof.Proof.Spec
import proofs.«139496_j11227044512441_1_alg».proof.Proof.RegionLib
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b)) (c : Dev nD)

/-! # The first dense stage: the input features times the first weight matrix

The region's grid has ten points; point t works on rows 10000 t … 10000 t + 9999 of the [100000, 32] features and of
the [100000, 64] result, and on the whole [32, 64] weight matrix. Its body multiplies the block of rows by the matrix
into a zero accumulator: entry (p, q) of the block's result is the sum over i < 32 of x(p, i) · w(i, q). The stage of
the network it realises is the same sum at every row of the whole array, so block t of that stage is what point t
writes. -/

/-- The linear stage x W at row r and column q: the sum over the 32 input columns. -/
theorem lin1_at (x : Cert.Spec.Arr Ideal S100000x32 .f32) (w : Cert.Spec.Arr Ideal S32x64 .f32) (r : Fin 100000) (q : Fin 64) :
    Cert.Spec.lin1 x w (ix2 r q) = ∑ i : Fin 32, x (ix2 r i) * w (ix2 i q) := by
  unfold Cert.Spec.lin1
  simp only [Host.dotGeneral]
  rw [Ideal.dotGeneral_apply]
  refine contraction_sum Cert.ReferenceIdeal.dot_S100000x32_S32x64_S100000x64_1_0_0_1_n_n 32 rfl rfl x w (ix2 r q)
    (fun i => ix2 r i) (fun i => ix2 i q) (fun kk => ?_) (fun kk => ?_)
  · funext a; apply Fin.ext
    match a with
    | ⟨0, _⟩ => simp [DotDims.lhsIdx, Cert.ReferenceIdeal.dot_S100000x32_S32x64_S100000x64_1_0_0_1_n_n]; rfl
    | ⟨1, _⟩ => exact Cert.ReferenceIdeal.dot_S100000x32_S32x64_S100000x64_1_0_0_1_n_n.lhsIdx_val_of_single rfl _ kk
  · funext a; apply Fin.ext
    match a with
    | ⟨0, _⟩ => exact Cert.ReferenceIdeal.dot_S100000x32_S32x64_S100000x64_1_0_0_1_n_n.rhsIdx_val_of_single rfl _ kk
    | ⟨1, _⟩ => simp [DotDims.rhsIdx, Cert.ReferenceIdeal.dot_S100000x32_S32x64_S100000x64_1_0_0_1_n_n]; rfl

/-- The body's result on a block of rows, at row p of the block and column q: the same sum over the block's row. -/
theorem body0_at (x0 : Vec Ideal S10000x32 .f32) (x1 : Vec Ideal S32x64 .f32) (p : Fin 10000) (q : Fin 64) :
    k0_pay1 x0 x1 (ix2 p q) = ∑ i : Fin 32, x0 (ix2 p i) * x1 (ix2 i q) := by
  unfold k0_pay1
  simp only [matmul]
  rw [Ideal.matmul_constant_zero_apply]
  simp only [truncf_apply]
  refine contraction_sum dot_S10000x32_S32x64_S10000x64_1_0_0_1_n_n 32 rfl rfl x0 x1 (ix2 p q)
    (fun i => ix2 p i) (fun i => ix2 i q) (fun kk => ?_) (fun kk => ?_)
  · funext a; apply Fin.ext
    match a with
    | ⟨0, _⟩ => simp [DotDims.lhsIdx, dot_S10000x32_S32x64_S10000x64_1_0_0_1_n_n]; rfl
    | ⟨1, _⟩ => exact dot_S10000x32_S32x64_S10000x64_1_0_0_1_n_n.lhsIdx_val_of_single rfl _ kk
  · funext a; apply Fin.ext
    match a with
    | ⟨0, _⟩ => exact dot_S10000x32_S32x64_S10000x64_1_0_0_1_n_n.rhsIdx_val_of_single rfl _ kk
    | ⟨1, _⟩ => simp [DotDims.rhsIdx, dot_S10000x32_S32x64_S10000x64_1_0_0_1_n_n]; rfl

/-- The block index maps over the grid: the features' and the result's blocks are block t of rows, the weight block is
    the whole matrix at every point. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is rows 10000 t … 10000 t + 9999 of the linear stage of the arrays the region was entered
    with. -/
theorem written_block0 (t : Fin cfg0.N) :
    (dat0 V c).flushed 2 t
      = ((cfg0.win 2).blk t).view.read (Elt Ideal) (Cert.Spec.lin1 (V c main_arg0) (V c main_arg4)) := by
  show (cfg0.win 2).cut (grid0.coords t) ((dat0 V c).after 2 t) = _
  rw [after0_2]
  unfold out0_2
  rw [View.canon_unit_zero offs_zero]
  simp only [View.ld_unit_zero (S := S10000x32) offs_zero, View.ld_unit_zero (S := S32x64) offs_zero]
  obtain ⟨e0, e1, e2, e3, e4, e5⟩ := block_index0 t
  have hN : cfg0.N = 10 := N_0
  have ht : t.val < 10 := hN ▸ t.isLt
  funext j
  obtain ⟨p, q, rfl⟩ : ∃ (p : Fin 10000) (q : Fin 64), j = ix2 p q := ⟨j 0, j 1, eq_ix2 j⟩
  have hp : p.val < 10000 := p.isLt
  have hq : q.val < 64 := q.isLt
  show k0_pay1 (iblk0 V c 0 t) (iblk0 V c 1 t) (ix2 p q)
    = Cert.Spec.lin1 (V c main_arg0) (V c main_arg4) (((cfg0.win 2).blk t).view.emb (ix2 p q))
  have hrow : ((cfg0.win 2).blk t).view.emb (ix2 p q) = ix2 (⟨t.val * 10000 + p.val, by omega⟩ : Fin 100000) q := by
    funext a; apply Fin.ext
    match a with
    | ⟨0, _⟩ => show win0_2.index t (0 : Fin 2) * 10000 + 1 * p.val = t.val * 10000 + p.val; rw [e4]; omega
    | ⟨1, _⟩ => show win0_2.index t (1 : Fin 2) * 64 + 1 * q.val = q.val; rw [e5]; omega
  have hx : ∀ i : Fin 32, (iblk0 V c 0 t : Vec Ideal S10000x32 .f32) (ix2 p i)
      = V c main_arg0 (ix2 (⟨t.val * 10000 + p.val, by omega⟩ : Fin 100000) i) := fun i => by
    have hi : i.val < 32 := i.isLt
    show V c main_arg0 (((cfg0.win 0).blk t).view.emb (ix2 p i)) = _
    refine congrArg (V c main_arg0) (funext fun a => Fin.ext ?_)
    match a with
    | ⟨0, _⟩ => show win0_0.index t (0 : Fin 2) * 10000 + 1 * p.val = t.val * 10000 + p.val; rw [e0]; omega
    | ⟨1, _⟩ => show win0_0.index t (1 : Fin 2) * 32 + 1 * i.val = i.val; rw [e1]; omega
  have hw : ∀ i : Fin 32, (iblk0 V c 1 t : Vec Ideal S32x64 .f32) (ix2 i q) = V c main_arg4 (ix2 i q) := fun i => by
    have hi : i.val < 32 := i.isLt
    show V c main_arg4 (((cfg0.win 1).blk t).view.emb (ix2 i q)) = _
    refine congrArg (V c main_arg4) (funext fun a => Fin.ext ?_)
    match a with
    | ⟨0, _⟩ => show win0_1.index t (0 : Fin 2) * 32 + 1 * i.val = i.val; rw [e2]; omega
    | ⟨1, _⟩ => show win0_1.index t (1 : Fin 2) * 64 + 1 * q.val = q.val; rw [e3]; omega
  rw [hrow, lin1_at, body0_at]
  exact Finset.sum_congr rfl fun i _ => by rw [hx i, hw i]

/-- An index of the result array is in point t's block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v31).slice (win0_2.rect t)).set ↔ _
  rw [View.set_slice_whole, Rect.mem_set_unit]
  exact Iff.rfl

/-- Row r lies in the block of point r / 10000: the ten blocks cover the array. -/
theorem covered0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨e0, e1, e2, e3, e4, e5⟩ := block_index0 t
  refine ⟨t, flush0_2 t, ?_⟩
  rw [mem_block0]
  intro a
  match a with
  | ⟨0, _⟩ =>
    show win0_2.index t (0 : Fin 2) * 10000 ≤ (i 0).val ∧ (i 0).val < win0_2.index t (0 : Fin 2) * 10000 + 10000
    rw [e4, ht]; omega
  | ⟨1, _⟩ =>
    show win0_2.index t (1 : Fin 2) * 64 ≤ (i 1).val ∧ (i 1).val < win0_2.index t (1 : Fin 2) * 64 + 64
    rw [e5]; omega

/-- After the region its result array holds the linear stage x W of the two arrays it was entered with. -/
theorem region0 : (dat0 (F := Ideal) V c).arrAt 2 cfg0.N = Cert.Spec.lin1 (F := Ideal) (V c main_arg0) (V c main_arg4) :=
  (dat0 V c).arrAt_eq_of_cover 2 (Cert.Spec.lin1 (V c main_arg0) (V c main_arg4))
    (fun t _ => written_block0 V c t) covered0

end Cert.KernelIdeal.RegionValue

end
-- ==== Proof.Region1.lean ====
import proofs.«139496_j11227044512441_1_alg».proof.Proof.Gen.KernelIdeal.Frame
import proofs.«139496_j11227044512441_1_alg».proof.Proof.Gen.ReferenceIdeal
import proofs.«139496_j11227044512441_1_alg».proof.Proof.Spec
import proofs.«139496_j11227044512441_1_alg».proof.Proof.RegionLib
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b)) (c : Dev nD)

/-! # The second dense stage: the activation of the first aggregation plus its bias, times the second weight matrix

The region's grid has ten points; point t works on rows 10000 t … 10000 t + 9999 of the [100000, 64] aggregation and of
the [100000, 32] result, on the whole [1, 64] bias row and on the whole [64, 32] weight matrix. Its body computes
a = act(s + b) entry by entry, with act(z) = z if z ≥ 0 and z · c otherwise, and multiplies the block of rows of a by
the matrix into a zero accumulator: entry (p, q) is the sum over i < 64 of a(p, i) · w(i, q). The stage of the network
it realises writes the activation's second branch as c · z and takes the same sum at every row of the whole array; the
two agree by the commutativity of multiplication on the extended reals. -/

/-- The activation stage act(s + b) at width 64, at row r and column i: the bias is read from its one row. -/
theorem act64r_at (s : Cert.Spec.Arr Ideal S100000x64 .f32) (b : Cert.Spec.Arr Ideal S1x64 .f32) (r : Fin 100000) (i : Fin 64) :
    Cert.Spec.act64r s b (ix2 r i)
      = Scalar.select (FloatOps.cmpf .oge (s (ix2 r i) + b (ix2 0 i)) (Ideal.ofBits .f32 0x00000000#32))
          (s (ix2 r i) + b (ix2 0 i)) (Ideal.ofBits .f32 0x3C23D70A#32 * (s (ix2 r i) + b (ix2 0 i))) := by
  unfold Cert.Spec.act64r Cert.Spec.leaky64
  rw [select_apply, cmpf_apply, mulf_apply, addf_apply]
  rw [broadcastInDim_scalar_apply, broadcastInDim_scalar_apply,
    broadcastInDim_apply _ _ b (ix2 r i) (ix2 0 i) (fun a => by match a with | ⟨0, _⟩ => rfl | ⟨1, _⟩ => rfl)]
  rfl

/-- The linear stage a W at row r and column q: the sum over the 64 hidden columns. -/
theorem lin2_at (a : Cert.Spec.Arr Ideal S100000x64 .f32) (w : Cert.Spec.Arr Ideal S64x32 .f32) (r : Fin 100000) (q : Fin 32) :
    Cert.Spec.lin2 a w (ix2 r q) = ∑ i : Fin 64, a (ix2 r i) * w (ix2 i q) := by
  unfold Cert.Spec.lin2
  simp only [Host.dotGeneral]
  rw [Ideal.dotGeneral_apply]
  refine contraction_sum Cert.ReferenceIdeal.dot_S100000x64_S64x32_S100000x32_1_0_0_1_n_n 64 rfl rfl a w (ix2 r q)
    (fun i => ix2 r i) (fun i => ix2 i q) (fun kk => ?_) (fun kk => ?_)
  · funext a; apply Fin.ext
    match a with
    | ⟨0, _⟩ => simp [DotDims.lhsIdx, Cert.ReferenceIdeal.dot_S100000x64_S64x32_S100000x32_1_0_0_1_n_n]; rfl
    | ⟨1, _⟩ => exact Cert.ReferenceIdeal.dot_S100000x64_S64x32_S100000x32_1_0_0_1_n_n.lhsIdx_val_of_single rfl _ kk
  · funext a; apply Fin.ext
    match a with
    | ⟨0, _⟩ => exact Cert.ReferenceIdeal.dot_S100000x64_S64x32_S100000x32_1_0_0_1_n_n.rhsIdx_val_of_single rfl _ kk
    | ⟨1, _⟩ => simp [DotDims.rhsIdx, Cert.ReferenceIdeal.dot_S100000x64_S64x32_S100000x32_1_0_0_1_n_n]; rfl

/-- The body's result on a block of rows, at row p of the block and column q: the sum over the block's row of the
    activated entries times the matrix's column. -/
theorem body1_at (x0 : Vec Ideal S10000x64 .f32) (x1 : Vec Ideal S1x64 .f32) (x2 : Vec Ideal S64x32 .f32)
    (p : Fin 10000) (q : Fin 32) :
    k1_pay1 x0 x1 x2 (ix2 p q)
      = ∑ i : Fin 64,
          Scalar.select (FloatOps.cmpf .oge (x0 (ix2 p i) + x1 (ix2 0 i)) (Ideal.ofBits .f32 0x00000000#32))
            (x0 (ix2 p i) + x1 (ix2 0 i)) ((x0 (ix2 p i) + x1 (ix2 0 i)) * Ideal.ofBits .f32 0x3C23D70A#32)
          * x2 (ix2 i q) := by
  unfold k1_pay1
  simp only [matmul]
  rw [Ideal.matmul_constant_zero_apply]
  simp only [truncf_apply]
  refine (contraction_sum dot_S10000x64_S64x32_S10000x32_1_0_0_1_n_n 64 rfl rfl _ x2 (ix2 p q)
    (fun i => ix2 p i) (fun i => ix2 i q) (fun kk => ?_) (fun kk => ?_)).trans
    (Finset.sum_congr rfl fun i _ => ?_)
  · funext a; apply Fin.ext
    match a with
    | ⟨0, _⟩ => simp [DotDims.lhsIdx, dot_S10000x64_S64x32_S10000x32_1_0_0_1_n_n]; rfl
    | ⟨1, _⟩ => exact dot_S10000x64_S64x32_S10000x32_1_0_0_1_n_n.lhsIdx_val_of_single rfl _ kk
  · funext a; apply Fin.ext
    match a with
    | ⟨0, _⟩ => exact dot_S10000x64_S64x32_S10000x32_1_0_0_1_n_n.rhsIdx_val_of_single rfl _ kk
    | ⟨1, _⟩ => simp [DotDims.rhsIdx, dot_S10000x64_S64x32_S10000x32_1_0_0_1_n_n]; rfl
  · show select _ _ _ (ix2 p i) * x2 (ix2 i q) = _
    rw [select_apply, cmpf_apply, mulf_apply, addf_apply]
    rw [shapeCast_self, shapeCast_self, broadcast_apply, broadcast_apply,
      broadcastTo_apply _ _ (ix2 p i) (ix2 0 i) (fun a => by match a with | ⟨0, _⟩ => rfl | ⟨1, _⟩ => rfl)]
    rfl

/-- The block index maps over the grid: the aggregation's and the result's blocks are block t of rows, the bias and
    the weight blocks are whole at every point. -/
theorem block_index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is rows 10000 t … 10000 t + 9999 of the second dense stage of the arrays the region was
    entered with. -/
theorem written_block1 (t : Fin cfg1.N) :
    (dat1 V c).flushed 3 t
      = ((cfg1.win 3).blk t).view.read (Elt Ideal)
          (Cert.Spec.lin2 (Cert.Spec.act64r (V c main_v44) (V c main_v45)) (V c main_arg6)) := by
  show (cfg1.win 3).cut (grid1.coords t) ((dat1 V c).after 3 t) = _
  rw [after1_3]
  unfold out1_3
  rw [View.canon_unit_zero offs_zero]
  simp only [View.ld_unit_zero (S := S10000x64) offs_zero, View.ld_unit_zero (S := S1x64) offs_zero,
    View.ld_unit_zero (S := S64x32) offs_zero]
  obtain ⟨e0, e1, e2, e3, e4, e5, e6, e7⟩ := block_index1 t
  have hN : cfg1.N = 10 := N_1
  have ht : t.val < 10 := hN ▸ t.isLt
  funext j
  obtain ⟨p, q, rfl⟩ : ∃ (p : Fin 10000) (q : Fin 32), j = ix2 p q := ⟨j 0, j 1, eq_ix2 j⟩
  have hp : p.val < 10000 := p.isLt
  have hq : q.val < 32 := q.isLt
  show k1_pay1 (iblk1 V c 0 t) (iblk1 V c 1 t) (iblk1 V c 2 t) (ix2 p q)
    = Cert.Spec.lin2 (Cert.Spec.act64r (V c main_v44) (V c main_v45)) (V c main_arg6)
        (((cfg1.win 3).blk t).view.emb (ix2 p q))
  have hrow : ((cfg1.win 3).blk t).view.emb (ix2 p q) = ix2 (⟨t.val * 10000 + p.val, by omega⟩ : Fin 100000) q := by
    funext a; apply Fin.ext
    match a with
    | ⟨0, _⟩ => show win1_3.index t (0 : Fin 2) * 10000 + 1 * p.val = t.val * 10000 + p.val; rw [e6]; omega
    | ⟨1, _⟩ => show win1_3.index t (1 : Fin 2) * 32 + 1 * q.val = q.val; rw [e7]; omega
  have hs : ∀ i : Fin 64, (iblk1 V c 0 t : Vec Ideal S10000x64 .f32) (ix2 p i)
      = V c main_v44 (ix2 (⟨t.val * 10000 + p.val, by omega⟩ : Fin 100000) i) := fun i => by
    have hi : i.val < 64 := i.isLt
    show V c main_v44 (((cfg1.win 0).blk t).view.emb (ix2 p i)) = _
    refine congrArg (V c main_v44) (funext fun a => Fin.ext ?_)
    match a with
    | ⟨0, _⟩ => show win1_0.index t (0 : Fin 2) * 10000 + 1 * p.val = t.val * 10000 + p.val; rw [e0]; omega
    | ⟨1, _⟩ => show win1_0.index t (1 : Fin 2) * 64 + 1 * i.val = i.val; rw [e1]; omega
  have hb : ∀ i : Fin 64, (iblk1 V c 1 t : Vec Ideal S1x64 .f32) (ix2 0 i) = V c main_v45 (ix2 0 i) := fun i => by
    have hi : i.val < 64 := i.isLt
    show V c main_v45 (((cfg1.win 1).blk t).view.emb (ix2 0 i)) = _
    refine congrArg (V c main_v45) (funext fun a => Fin.ext ?_)
    match a with
    | ⟨0, _⟩ => show win1_1.index t (0 : Fin 2) * 1 + 1 * 0 = 0; rw [e2]
    | ⟨1, _⟩ => show win1_1.index t (1 : Fin 2) * 64 + 1 * i.val = i.val; rw [e3]; omega
  have hw : ∀ i : Fin 64, (iblk1 V c 2 t : Vec Ideal S64x32 .f32) (ix2 i q) = V c main_arg6 (ix2 i q) := fun i => by
    have hi : i.val < 64 := i.isLt
    show V c main_arg6 (((cfg1.win 2).blk t).view.emb (ix2 i q)) = _
    refine congrArg (V c main_arg6) (funext fun a => Fin.ext ?_)
    match a with
    | ⟨0, _⟩ => show win1_2.index t (0 : Fin 2) * 64 + 1 * i.val = i.val; rw [e4]; omega
    | ⟨1, _⟩ => show win1_2.index t (1 : Fin 2) * 32 + 1 * q.val = q.val; rw [e5]; omega
  rw [hrow, lin2_at, body1_at]
  refine Finset.sum_congr rfl fun i _ => ?_
  rw [act64r_at, hs i, hb i, hw i]
  exact congrArg (· * _) (congrArg _ (mul_comm _ _))

/-- An index of the result array is in point t's block iff each coordinate is in the block's range on its axis. -/
theorem mem_block1 (t : Fin cfg1.N) (i : S100000x32.Idx) :
    i ∈ ((cfg1.win 3).blk t).view.set ↔ ∀ a : Fin 2, win1_3.index t a * S10000x32.size a ≤ (i a).val
      ∧ (i a).val < win1_3.index t a * S10000x32.size a + S10000x32.size a := by
  show i ∈ ((View.whole main_v46).slice (win1_3.rect t)).set ↔ _
  rw [View.set_slice_whole, Rect.mem_set_unit]
  exact Iff.rfl

/-- Row r lies in the block of point r / 10000: the ten blocks cover the array. -/
theorem covered1 (i : S100000x32.Idx) :
    ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 10 := N_1
  obtain ⟨t, ht⟩ : ∃ t : Fin cfg1.N, t.val = (i 0).val / 10000 := ⟨⟨(i 0).val / 10000, by rw [hN]; omega⟩, rfl⟩
  obtain ⟨e0, e1, e2, e3, e4, e5, e6, e7⟩ := block_index1 t
  refine ⟨t, flush1_3 t, ?_⟩
  rw [mem_block1]
  intro a
  match a with
  | ⟨0, _⟩ =>
    show win1_3.index t (0 : Fin 2) * 10000 ≤ (i 0).val ∧ (i 0).val < win1_3.index t (0 : Fin 2) * 10000 + 10000
    rw [e6, ht]; omega
  | ⟨1, _⟩ =>
    show win1_3.index t (1 : Fin 2) * 32 ≤ (i 1).val ∧ (i 1).val < win1_3.index t (1 : Fin 2) * 32 + 32
    rw [e7]; omega

/-- After the region its result array holds the second dense stage act(s + b) W of the three arrays it was entered
    with. -/
theorem region1 : (dat1 (F := Ideal) V c).arrAt 3 cfg1.N
    = Cert.Spec.lin2 (Cert.Spec.act64r (V c main_v44) (V c main_v45)) (V c main_arg6) :=
  (dat1 V c).arrAt_eq_of_cover 3 (Cert.Spec.lin2 (Cert.Spec.act64r (V c main_v44) (V c main_v45)) (V c main_arg6))
    (fun t _ => written_block1 V c t) covered1

end Cert.KernelIdeal.RegionValue

end
-- ==== Proof.Region2.lean ====
import proofs.«139496_j11227044512441_1_alg».proof.Proof.Gen.KernelIdeal.Frame
import proofs.«139496_j11227044512441_1_alg».proof.Proof.Gen.ReferenceIdeal
import proofs.«139496_j11227044512441_1_alg».proof.Proof.Spec
import proofs.«139496_j11227044512441_1_alg».proof.Proof.RegionLib
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b)) (c : Dev nD)

/-! # The third dense stage: the activation of the second aggregation plus its bias

The region's grid has ten points; point t works on rows 10000 t … 10000 t + 9999 of the [100000, 32] array and on
the whole [1, 32] bias row. Its body computes, entry by entry, act(s + b) with act(z) = z if z ≥ 0 and z · c
otherwise. The stage of the network it realises writes the same activation as c · z: the two agree by the
commutativity of multiplication on the extended reals. -/

/-- The activation stage act(s + b) at row r and column q: the bias is read from its one row. -/
theorem act32r_at (s : Cert.Spec.Arr Ideal S100000x32 .f32) (b : Cert.Spec.Arr Ideal S1x32 .f32) (r : Fin 100000) (q : Fin 32) :
    Cert.Spec.act32r s b (ix2 r q)
      = Scalar.select (FloatOps.cmpf .oge (s (ix2 r q) + b (ix2 0 q)) (Ideal.ofBits .f32 0x00000000#32))
          (s (ix2 r q) + b (ix2 0 q)) (Ideal.ofBits .f32 0x3C23D70A#32 * (s (ix2 r q) + b (ix2 0 q))) := by
  unfold Cert.Spec.act32r Cert.Spec.leaky32
  rw [select_apply, cmpf_apply, mulf_apply, addf_apply]
  rw [broadcastInDim_scalar_apply, broadcastInDim_scalar_apply,
    broadcastInDim_apply _ _ b (ix2 r q) (ix2 0 q) (fun a => by match a with | ⟨0, _⟩ => rfl | ⟨1, _⟩ => rfl)]
  rfl

/-- The body's result on a block of rows, at row p of the block and column q. -/
theorem body2_at (x0 : Vec Ideal S10000x32 .f32) (x1 : Vec Ideal S1x32 .f32) (p : Fin 10000) (q : Fin 32) :
    k2_pay1 x0 x1 (ix2 p q)
      = Scalar.select (FloatOps.cmpf .oge (x0 (ix2 p q) + x1 (ix2 0 q)) (Ideal.ofBits .f32 0x00000000#32))
          (x0 (ix2 p q) + x1 (ix2 0 q)) ((x0 (ix2 p q) + x1 (ix2 0 q)) * Ideal.ofBits .f32 0x3C23D70A#32) := by
  unfold k2_pay1
  rw [select_apply, cmpf_apply, mulf_apply, addf_apply]
  rw [shapeCast_self, shapeCast_self, broadcast_apply, broadcast_apply,
    broadcastTo_apply _ _ (ix2 p q) (ix2 0 q) (fun a => by match a with | ⟨0, _⟩ => rfl | ⟨1, _⟩ => rfl)]
  rfl

/-- The block index maps over the grid: the activations' and the result's blocks are block t of rows, the bias block
    is the whole row at every point. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is rows 10000 t … 10000 t + 9999 of the activation stage of the arrays the region was
    entered with. -/
theorem written_block2 (t : Fin cfg2.N) :
    (dat2 V c).flushed 2 t
      = ((cfg2.win 2).blk t).view.read (Elt Ideal) (Cert.Spec.act32r (V c main_v59) (V c main_v60)) := by
  show (cfg2.win 2).cut (grid2.coords t) ((dat2 V c).after 2 t) = _
  rw [after2_2]
  unfold out2_2
  rw [View.canon_unit_zero offs_zero]
  simp only [View.ld_unit_zero (S := S10000x32) offs_zero, View.ld_unit_zero (S := S1x32) offs_zero]
  obtain ⟨e0, e1, e2, e3, e4, e5⟩ := block_index2 t
  have hN : cfg2.N = 10 := N_2
  have ht : t.val < 10 := hN ▸ t.isLt
  funext j
  obtain ⟨p, q, rfl⟩ : ∃ (p : Fin 10000) (q : Fin 32), j = ix2 p q := ⟨j 0, j 1, eq_ix2 j⟩
  have hp : p.val < 10000 := p.isLt
  have hq : q.val < 32 := q.isLt
  show k2_pay1 (iblk2 V c 0 t) (iblk2 V c 1 t) (ix2 p q)
    = Cert.Spec.act32r (V c main_v59) (V c main_v60) (((cfg2.win 2).blk t).view.emb (ix2 p q))
  have hrow : ((cfg2.win 2).blk t).view.emb (ix2 p q) = ix2 (⟨t.val * 10000 + p.val, by omega⟩ : Fin 100000) q := by
    funext a; apply Fin.ext
    match a with
    | ⟨0, _⟩ => show win2_2.index t (0 : Fin 2) * 10000 + 1 * p.val = t.val * 10000 + p.val; rw [e4]; omega
    | ⟨1, _⟩ => show win2_2.index t (1 : Fin 2) * 32 + 1 * q.val = q.val; rw [e5]; omega
  have hs : (iblk2 V c 0 t : Vec Ideal S10000x32 .f32) (ix2 p q)
      = V c main_v59 (ix2 (⟨t.val * 10000 + p.val, by omega⟩ : Fin 100000) q) := by
    show V c main_v59 (((cfg2.win 0).blk t).view.emb (ix2 p q)) = _
    refine congrArg (V c main_v59) (funext fun a => Fin.ext ?_)
    match a with
    | ⟨0, _⟩ => show win2_0.index t (0 : Fin 2) * 10000 + 1 * p.val = t.val * 10000 + p.val; rw [e0]; omega
    | ⟨1, _⟩ => show win2_0.index t (1 : Fin 2) * 32 + 1 * q.val = q.val; rw [e1]; omega
  have hb : (iblk2 V c 1 t : Vec Ideal S1x32 .f32) (ix2 0 q) = V c main_v60 (ix2 0 q) := by
    show V c main_v60 (((cfg2.win 1).blk t).view.emb (ix2 0 q)) = _
    refine congrArg (V c main_v60) (funext fun a => Fin.ext ?_)
    match a with
    | ⟨0, _⟩ => show win2_1.index t (0 : Fin 2) * 1 + 1 * 0 = 0; rw [e2]
    | ⟨1, _⟩ => show win2_1.index t (1 : Fin 2) * 32 + 1 * q.val = q.val; rw [e3]; omega
  rw [hrow, act32r_at, body2_at, hs, hb]
  exact congrArg _ (mul_comm _ _)

/-- An index of the result array is in point t's block iff each coordinate is in the block's range on its axis. -/
theorem mem_block2 (t : Fin cfg2.N) (i : S100000x32.Idx) :
    i ∈ ((cfg2.win 2).blk t).view.set ↔ ∀ a : Fin 2, win2_2.index t a * S10000x32.size a ≤ (i a).val
      ∧ (i a).val < win2_2.index t a * S10000x32.size a + S10000x32.size a := by
  show i ∈ ((View.whole main_v61).slice (win2_2.rect t)).set ↔ _
  rw [View.set_slice_whole, Rect.mem_set_unit]
  exact Iff.rfl

/-- Row r lies in the block of point r / 10000: the ten blocks cover the array. -/
theorem covered2 (i : S100000x32.Idx) :
    ∃ t : Fin cfg2.N, (cfg2.win 2).flush t = true ∧ i ∈ ((cfg2.win 2).blk t).view.set := by
  have hi0 : (i 0).val < 100000 := (i 0).isLt
  have hi1 : (i 1).val < 32 := (i 1).isLt
  have hN : cfg2.N = 10 := N_2
  obtain ⟨t, ht⟩ : ∃ t : Fin cfg2.N, t.val = (i 0).val / 10000 := ⟨⟨(i 0).val / 10000, by rw [hN]; omega⟩, rfl⟩
  obtain ⟨e0, e1, e2, e3, e4, e5⟩ := block_index2 t
  refine ⟨t, flush2_2 t, ?_⟩
  rw [mem_block2]
  intro a
  match a with
  | ⟨0, _⟩ =>
    show win2_2.index t (0 : Fin 2) * 10000 ≤ (i 0).val ∧ (i 0).val < win2_2.index t (0 : Fin 2) * 10000 + 10000
    rw [e4, ht]; omega
  | ⟨1, _⟩ =>
    show win2_2.index t (1 : Fin 2) * 32 ≤ (i 1).val ∧ (i 1).val < win2_2.index t (1 : Fin 2) * 32 + 32
    rw [e5]; omega

/-- After the region its result array holds the activation stage of the two arrays it was entered with. -/
theorem region2 : (dat2 (F := Ideal) V c).arrAt 2 cfg2.N = Cert.Spec.act32r (V c main_v59) (V c main_v60) :=
  (dat2 V c).arrAt_eq_of_cover 2 (Cert.Spec.act32r (V c main_v59) (V c main_v60))
    (fun t _ => written_block2 V c t) covered2

end Cert.KernelIdeal.RegionValue

end
-- ==== Proof.Region3.lean ====
import proofs.«139496_j11227044512441_1_alg».proof.Proof.Gen.KernelIdeal.Frame
import proofs.«139496_j11227044512441_1_alg».proof.Proof.Gen.ReferenceIdeal
import proofs.«139496_j11227044512441_1_alg».proof.Proof.Spec
import proofs.«139496_j11227044512441_1_alg».proof.Proof.RegionLib
import Idealize.ShloMosaic.Lib.ValueIdx
import Idealize.ShloMosaic.Lib.IdealHost
import Idealize.ShloMosaic.Lib.Pipeline.Value
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b)) (c : Dev nD)

/-! # The output head: the pooled features times the head's weight matrix, plus its bias

The region's grid has one point, at which every window's block is its whole array: the [64, 32] pooled features, the
[32, 2] weight matrix, the [1, 2] bias row and the [64, 2] result. Its body multiplies the features by the matrix into a
zero accumulator and adds the bias row to every row: entry (g, q) is the sum over i < 32 of p(g, i) · w(i, q), plus b(q).
The stage of the network it realises is the same expression. -/

/-- The head p Wm + bm at row g and column q: the bias is read from its one row. -/
theorem headr_at (p : Cert.Spec.Arr Ideal S64x32 .f32) (w : Cert.Spec.Arr Ideal S32x2 .f32) (b : Cert.Spec.Arr Ideal S1x2 .f32)
    (g : Fin 64) (q : Fin 2) :
    Cert.Spec.headr p w b (ix2 g q) = (∑ i : Fin 32, p (ix2 g i) * w (ix2 i q)) + b (ix2 0 q) := by
  unfold Cert.Spec.headr
  rw [addf_apply]
  simp only [Host.dotGeneral]
  rw [Ideal.dotGeneral_apply,
    broadcastInDim_apply _ _ b (ix2 g q) (ix2 0 q) (fun a => by match a with | ⟨0, _⟩ => rfl | ⟨1, _⟩ => rfl)]
  refine congrArg (· + b (ix2 0 q)) ?_
  refine contraction_sum Cert.ReferenceIdeal.dot_S64x32_S32x2_S64x2_1_0_0_1_n_n 32 rfl rfl p w (ix2 g q)
    (fun i => ix2 g i) (fun i => ix2 i q) (fun kk => ?_) (fun kk => ?_)
  · funext a; apply Fin.ext
    match a with
    | ⟨0, _⟩ => simp [DotDims.lhsIdx, Cert.ReferenceIdeal.dot_S64x32_S32x2_S64x2_1_0_0_1_n_n]; rfl
    | ⟨1, _⟩ => exact Cert.ReferenceIdeal.dot_S64x32_S32x2_S64x2_1_0_0_1_n_n.lhsIdx_val_of_single rfl _ kk
  · funext a; apply Fin.ext
    match a with
    | ⟨0, _⟩ => exact Cert.ReferenceIdeal.dot_S64x32_S32x2_S64x2_1_0_0_1_n_n.rhsIdx_val_of_single rfl _ kk
    | ⟨1, _⟩ => simp [DotDims.rhsIdx, Cert.ReferenceIdeal.dot_S64x32_S32x2_S64x2_1_0_0_1_n_n]; rfl

/-- The body's result at row g and column q: the same sum plus the bias row's entry. -/
theorem body3_at (x0 : Vec Ideal S64x32 .f32) (x1 : Vec Ideal S32x2 .f32) (x2 : Vec Ideal S1x2 .f32) (g : Fin 64) (q : Fin 2) :
    k3_pay1 x0 x1 x2 (ix2 g q) = (∑ i : Fin 32, x0 (ix2 g i) * x1 (ix2 i q)) + x2 (ix2 0 q) := by
  unfold k3_pay1
  rw [addf_apply]
  simp only [matmul]
  rw [Ideal.matmul_constant_zero_apply, shapeCast_self, shapeCast_self,
    broadcastTo_apply _ _ (ix2 g q) (ix2 0 q) (fun a => by match a with | ⟨0, _⟩ => rfl | ⟨1, _⟩ => rfl)]
  simp only [truncf_apply]
  refine congrArg (· + x2 (ix2 0 q)) ?_
  refine contraction_sum dot_S64x32_S32x2_S64x2_1_0_0_1_n_n 32 rfl rfl x0 x1 (ix2 g q)
    (fun i => ix2 g i) (fun i => ix2 i q) (fun kk => ?_) (fun kk => ?_)
  · funext a; apply Fin.ext
    match a with
    | ⟨0, _⟩ => simp [DotDims.lhsIdx, dot_S64x32_S32x2_S64x2_1_0_0_1_n_n]; rfl
    | ⟨1, _⟩ => exact dot_S64x32_S32x2_S64x2_1_0_0_1_n_n.lhsIdx_val_of_single rfl _ kk
  · funext a; apply Fin.ext
    match a with
    | ⟨0, _⟩ => exact dot_S64x32_S32x2_S64x2_1_0_0_1_n_n.rhsIdx_val_of_single rfl _ kk
    | ⟨1, _⟩ => simp [DotDims.rhsIdx, dot_S64x32_S32x2_S64x2_1_0_0_1_n_n]; rfl

/-- The block index maps at the one grid point: every block is the whole array. -/
theorem block_index3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0 :=
  (by decide +kernel : ∀ t : Fin grid3.N, _)

/-- What the point writes back is the head of the arrays the region was entered with. -/
theorem written_block3 (t : Fin cfg3.N) :
    (dat3 V c).flushed 3 t
      = ((cfg3.win 3).blk t).view.read (Elt Ideal) (Cert.Spec.headr (V c main_v73) (V c main_arg8) (V c main_v74)) := by
  show (cfg3.win 3).cut (grid3.coords t) ((dat3 V c).after 3 t) = _
  rw [after3_3]
  unfold out3_3
  rw [View.canon_unit_zero offs_zero]
  simp only [View.ld_unit_zero (S := S64x32) offs_zero, View.ld_unit_zero (S := S32x2) offs_zero,
    View.ld_unit_zero (S := S1x2) offs_zero]
  obtain ⟨e0, e1, e2, e3, e4, e5, e6, e7⟩ := block_index3 t
  funext j
  obtain ⟨g, q, rfl⟩ : ∃ (g : Fin 64) (q : Fin 2), j = ix2 g q := ⟨j 0, j 1, eq_ix2 j⟩
  have hg : g.val < 64 := g.isLt
  have hq : q.val < 2 := q.isLt
  show k3_pay1 (iblk3 V c 0 t) (iblk3 V c 1 t) (iblk3 V c 2 t) (ix2 g q)
    = Cert.Spec.headr (V c main_v73) (V c main_arg8) (V c main_v74) (((cfg3.win 3).blk t).view.emb (ix2 g q))
  have hrow : ((cfg3.win 3).blk t).view.emb (ix2 g q) = ix2 g q := by
    funext a; apply Fin.ext
    match a with
    | ⟨0, _⟩ => show win3_3.index t (0 : Fin 2) * 64 + 1 * g.val = g.val; rw [e6]; omega
    | ⟨1, _⟩ => show win3_3.index t (1 : Fin 2) * 2 + 1 * q.val = q.val; rw [e7]; omega
  have hp : ∀ i : Fin 32, (iblk3 V c 0 t : Vec Ideal S64x32 .f32) (ix2 g i) = V c main_v73 (ix2 g i) := fun i => by
    have hi : i.val < 32 := i.isLt
    show V c main_v73 (((cfg3.win 0).blk t).view.emb (ix2 g i)) = _
    refine congrArg (V c main_v73) (funext fun a => Fin.ext ?_)
    match a with
    | ⟨0, _⟩ => show win3_0.index t (0 : Fin 2) * 64 + 1 * g.val = g.val; rw [e0]; omega
    | ⟨1, _⟩ => show win3_0.index t (1 : Fin 2) * 32 + 1 * i.val = i.val; rw [e1]; omega
  have hw : ∀ i : Fin 32, (iblk3 V c 1 t : Vec Ideal S32x2 .f32) (ix2 i q) = V c main_arg8 (ix2 i q) := fun i => by
    have hi : i.val < 32 := i.isLt
    show V c main_arg8 (((cfg3.win 1).blk t).view.emb (ix2 i q)) = _
    refine congrArg (V c main_arg8) (funext fun a => Fin.ext ?_)
    match a with
    | ⟨0, _⟩ => show win3_1.index t (0 : Fin 2) * 32 + 1 * i.val = i.val; rw [e2]; omega
    | ⟨1, _⟩ => show win3_1.index t (1 : Fin 2) * 2 + 1 * q.val = q.val; rw [e3]; omega
  have hb : (iblk3 V c 2 t : Vec Ideal S1x2 .f32) (ix2 0 q) = V c main_v74 (ix2 0 q) := by
    show V c main_v74 (((cfg3.win 2).blk t).view.emb (ix2 0 q)) = _
    refine congrArg (V c main_v74) (funext fun a => Fin.ext ?_)
    match a with
    | ⟨0, _⟩ => show win3_2.index t (0 : Fin 2) * 1 + 1 * 0 = 0; rw [e4]
    | ⟨1, _⟩ => show win3_2.index t (1 : Fin 2) * 2 + 1 * q.val = q.val; rw [e5]; omega
  rw [hrow, headr_at, body3_at, hb]
  exact congrArg (· + V c main_v74 (ix2 0 q)) (Finset.sum_congr rfl fun i _ => by rw [hp i, hw i])

/-- An index of the result array is in the point's block iff each coordinate is in the block's range on its axis. -/
theorem mem_block3 (t : Fin cfg3.N) (i : S64x2.Idx) :
    i ∈ ((cfg3.win 3).blk t).view.set ↔ ∀ a : Fin 2, win3_3.index t a * S64x2.size a ≤ (i a).val
      ∧ (i a).val < win3_3.index t a * S64x2.size a + S64x2.size a := by
  show i ∈ ((View.whole main_v75).slice (win3_3.rect t)).set ↔ _
  rw [View.set_slice_whole, Rect.mem_set_unit]
  exact Iff.rfl

/-- The one block covers the array. -/
theorem covered3 (i : S64x2.Idx) :
    ∃ t : Fin cfg3.N, (cfg3.win 3).flush t = true ∧ i ∈ ((cfg3.win 3).blk t).view.set := by
  have hi0 : (i 0).val < 64 := (i 0).isLt
  have hi1 : (i 1).val < 2 := (i 1).isLt
  have hN : cfg3.N = 1 := N_3
  obtain ⟨t, ht⟩ : ∃ t : Fin cfg3.N, t.val = 0 := ⟨⟨0, by rw [hN]; omega⟩, rfl⟩
  obtain ⟨e0, e1, e2, e3, e4, e5, e6, e7⟩ := block_index3 t
  refine ⟨t, flush3_3 t, ?_⟩
  rw [mem_block3]
  intro a
  match a with
  | ⟨0, _⟩ =>
    show win3_3.index t (0 : Fin 2) * 64 ≤ (i 0).val ∧ (i 0).val < win3_3.index t (0 : Fin 2) * 64 + 64
    rw [e6]; omega
  | ⟨1, _⟩ =>
    show win3_3.index t (1 : Fin 2) * 2 ≤ (i 1).val ∧ (i 1).val < win3_3.index t (1 : Fin 2) * 2 + 2
    rw [e7]; omega

/-- After the region its result array holds the head p Wm + bm of the three arrays it was entered with. -/
theorem region3 : (dat3 (F := Ideal) V c).arrAt 3 cfg3.N
    = Cert.Spec.headr (V c main_v73) (V c main_arg8) (V c main_v74) :=
  (dat3 V c).arrAt_eq_of_cover 3 (Cert.Spec.headr (V c main_v73) (V c main_arg8) (V c main_v74))
    (fun t _ => written_block3 V c t) covered3

end Cert.KernelIdeal.RegionValue

end
-- ==== Proof.KerChainB.lean ====
/-
  The kernel program's buffers from its first dense stage to its result, as the network's named stages of the
  launch contents. The program alternates a dense stage, done as a pipelined region, with a stretch of host
  operations: each region leaves in its output array the stage's function of the arrays it was entered with,
  each stretch aggregates along the edges (or pools) what the region before it left, and every buffer a segment
  does not write is carried across it. Chained in order, the result buffer ends at the whole network applied
  to the ten argument arrays.
-/
import proofs.«139496_j11227044512441_1_alg».proof.Proof.Gen.KernelIdeal.Frame
import proofs.«139496_j11227044512441_1_alg».proof.Proof.Gen.ReferenceIdeal
import proofs.«139496_j11227044512441_1_alg».proof.Proof.Spec
import proofs.«139496_j11227044512441_1_alg».proof.Proof.KerStretch
import proofs.«139496_j11227044512441_1_alg».proof.Proof.KerChainA
import proofs.«139496_j11227044512441_1_alg».proof.Proof.Region0
import proofs.«139496_j11227044512441_1_alg».proof.Proof.Region1
import proofs.«139496_j11227044512441_1_alg».proof.Proof.Region2
import proofs.«139496_j11227044512441_1_alg».proof.Proof.Region3
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- A buffer that no operation of a stretch writes holds after the stretch what it held before. -/
local macro "keep_through " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-! ## The named values, stage by stage -/

/-- x W1. -/
abbrev h0E : Cert.Spec.Arr Ideal Cert.ReferenceIdeal.S100000x64 .f32 := Cert.Spec.lin1 (m ((c : Thread nD τ).loc main_arg0)) (m ((c : Thread nD τ).loc main_arg4))
/-- Its rows aggregated along the edges. -/
abbrev s1E : Cert.Spec.Arr Ideal Cert.ReferenceIdeal.S100000x64 .f32 := Cert.Spec.agg64 (srcE m c) (dstE m c) (nrmE m c) (h0E m c)
/-- act(s1 + b1) W2. -/
abbrev h1E : Cert.Spec.Arr Ideal Cert.ReferenceIdeal.S100000x32 .f32 :=
  Cert.Spec.lin2 (Cert.Spec.act64r (s1E m c) (Cert.Spec.row64 (m ((c : Thread nD τ).loc main_arg5)))) (m ((c : Thread nD τ).loc main_arg6))
/-- Its rows aggregated along the edges. -/
abbrev s2E : Cert.Spec.Arr Ideal Cert.ReferenceIdeal.S100000x32 .f32 := Cert.Spec.agg32 (srcE m c) (dstE m c) (nrmE m c) (h1E m c)
/-- act(s2 + b2). -/
abbrev o2E : Cert.Spec.Arr Ideal Cert.ReferenceIdeal.S100000x32 .f32 := Cert.Spec.act32r (s2E m c) (Cert.Spec.row32 (m ((c : Thread nD τ).loc main_arg7)))
/-- The mean over each graph. -/
abbrev pE : Cert.Spec.Arr Ideal Cert.ReferenceIdeal.S64x32 .f32 := Cert.Spec.pool (m ((c : Thread nD τ).loc main_arg3)) (o2E m c)

/-! ## The first dense stage -/

theorem w6_h0 : W6 m ρ c (Proc.devRef .tc main_v31) = h0E m c :=
  (W6_arr m ρ c 2).trans ((RegionValue.region0 (V5 m ρ) c).trans
    (congrArg₂ (Cert.Spec.lin1 (F := Ideal)) (w5_arg0 m ρ c) (w5_arg4 m ρ c)))
theorem w6_src : W6 m ρ c (Proc.devRef .tc main_v1) = srcE m c := (W6_of_ne m ρ c main_v1 (by decide)).trans (w5_src m ρ c)
theorem w6_dst : W6 m ρ c (Proc.devRef .tc main_v3) = dstE m c := (W6_of_ne m ρ c main_v3 (by decide)).trans (w5_dst m ρ c)
theorem w6_nrm : W6 m ρ c (Proc.devRef .tc main_v30) = nrmE m c := (W6_of_ne m ρ c main_v30 (by decide)).trans (w5_nrm m ρ c)
theorem w6_arg3 : W6 m ρ c (Proc.devRef .tc main_arg3) = (m ((c : Thread nD τ).loc main_arg3)) := (W6_of_ne m ρ c main_arg3 (by decide)).trans (w5_arg3 m ρ c)
theorem w6_arg5 : W6 m ρ c (Proc.devRef .tc main_arg5) = (m ((c : Thread nD τ).loc main_arg5)) := (W6_of_ne m ρ c main_arg5 (by decide)).trans (w5_arg5 m ρ c)
theorem w6_arg6 : W6 m ρ c (Proc.devRef .tc main_arg6) = (m ((c : Thread nD τ).loc main_arg6)) := (W6_of_ne m ρ c main_arg6 (by decide)).trans (w5_arg6 m ρ c)
theorem w6_arg7 : W6 m ρ c (Proc.devRef .tc main_arg7) = (m ((c : Thread nD τ).loc main_arg7)) := (W6_of_ne m ρ c main_arg7 (by decide)).trans (w5_arg7 m ρ c)
theorem w6_arg8 : W6 m ρ c (Proc.devRef .tc main_arg8) = (m ((c : Thread nD τ).loc main_arg8)) := (W6_of_ne m ρ c main_arg8 (by decide)).trans (w5_arg8 m ρ c)
theorem w6_arg9 : W6 m ρ c (Proc.devRef .tc main_arg9) = (m ((c : Thread nD τ).loc main_arg9)) := (W6_of_ne m ρ c main_arg9 (by decide)).trans (w5_arg9 m ρ c)

/-! ## Aggregation, and the second dense stage -/

theorem w7_s1 : W7 m ρ c (Proc.devRef .tc main_v44) = s1E m c :=
  (Stretch.s1_agg (W6 m ρ c)).trans (by rw [w6_src, w6_dst, w6_nrm, w6_h0])
theorem w7_row : W7 m ρ c (Proc.devRef .tc main_v45) = Cert.Spec.row64 (m ((c : Thread nD τ).loc main_arg5)) :=
  (Stretch.s1_row (W6 m ρ c)).trans (by rw [w6_arg5]; exact row_eq 64 (by decide) _ _ _)
theorem w7_src : W7 m ρ c (Proc.devRef .tc main_v1) = srcE m c :=
  (by keep_through hostOps1 : W7 m ρ c (Proc.devRef .tc main_v1) = W6 m ρ c (Proc.devRef .tc main_v1)).trans (w6_src m ρ c)
theorem w7_dst : W7 m ρ c (Proc.devRef .tc main_v3) = dstE m c :=
  (by keep_through hostOps1 : W7 m ρ c (Proc.devRef .tc main_v3) = W6 m ρ c (Proc.devRef .tc main_v3)).trans (w6_dst m ρ c)
theorem w7_nrm : W7 m ρ c (Proc.devRef .tc main_v30) = nrmE m c :=
  (by keep_through hostOps1 : W7 m ρ c (Proc.devRef .tc main_v30) = W6 m ρ c (Proc.devRef .tc main_v30)).trans (w6_nrm m ρ c)
theorem w7_arg3 : W7 m ρ c (Proc.devRef .tc main_arg3) = (m ((c : Thread nD τ).loc main_arg3)) :=
  (by keep_through hostOps1 : W7 m ρ c (Proc.devRef .tc main_arg3) = W6 m ρ c (Proc.devRef .tc main_arg3)).trans (w6_arg3 m ρ c)
theorem w7_arg6 : W7 m ρ c (Proc.devRef .tc main_arg6) = (m ((c : Thread nD τ).loc main_arg6)) :=
  (by keep_through hostOps1 : W7 m ρ c (Proc.devRef .tc main_arg6) = W6 m ρ c (Proc.devRef .tc main_arg6)).trans (w6_arg6 m ρ c)
theorem w7_arg7 : W7 m ρ c (Proc.devRef .tc main_arg7) = (m ((c : Thread nD τ).loc main_arg7)) :=
  (by keep_through hostOps1 : W7 m ρ c (Proc.devRef .tc main_arg7) = W6 m ρ c (Proc.devRef .tc main_arg7)).trans (w6_arg7 m ρ c)
theorem w7_arg8 : W7 m ρ c (Proc.devRef .tc main_arg8) = (m ((c : Thread nD τ).loc main_arg8)) :=
  (by keep_through hostOps1 : W7 m ρ c (Proc.devRef .tc main_arg8) = W6 m ρ c (Proc.devRef .tc main_arg8)).trans (w6_arg8 m ρ c)
theorem w7_arg9 : W7 m ρ c (Proc.devRef .tc main_arg9) = (m ((c : Thread nD τ).loc main_arg9)) :=
  (by keep_through hostOps1 : W7 m ρ c (Proc.devRef .tc main_arg9) = W6 m ρ c (Proc.devRef .tc main_arg9)).trans (w6_arg9 m ρ c)

theorem w8_h1 : W8 m ρ c (Proc.devRef .tc main_v46) = h1E m c :=
  (W8_arr m ρ c 3).trans ((RegionValue.region1 (V7 m ρ) c).trans
    (congrArg₂ (Cert.Spec.lin2 (F := Ideal)) (congrArg₂ (Cert.Spec.act64r (F := Ideal)) (w7_s1 m ρ c) (w7_row m ρ c)) (w7_arg6 m ρ c)))
theorem w8_src : W8 m ρ c (Proc.devRef .tc main_v1) = srcE m c := (W8_of_ne m ρ c main_v1 (by decide)).trans (w7_src m ρ c)
theorem w8_dst : W8 m ρ c (Proc.devRef .tc main_v3) = dstE m c := (W8_of_ne m ρ c main_v3 (by decide)).trans (w7_dst m ρ c)
theorem w8_nrm : W8 m ρ c (Proc.devRef .tc main_v30) = nrmE m c := (W8_of_ne m ρ c main_v30 (by decide)).trans (w7_nrm m ρ c)
theorem w8_arg3 : W8 m ρ c (Proc.devRef .tc main_arg3) = (m ((c : Thread nD τ).loc main_arg3)) := (W8_of_ne m ρ c main_arg3 (by decide)).trans (w7_arg3 m ρ c)
theorem w8_arg7 : W8 m ρ c (Proc.devRef .tc main_arg7) = (m ((c : Thread nD τ).loc main_arg7)) := (W8_of_ne m ρ c main_arg7 (by decide)).trans (w7_arg7 m ρ c)
theorem w8_arg8 : W8 m ρ c (Proc.devRef .tc main_arg8) = (m ((c : Thread nD τ).loc main_arg8)) := (W8_of_ne m ρ c main_arg8 (by decide)).trans (w7_arg8 m ρ c)
theorem w8_arg9 : W8 m ρ c (Proc.devRef .tc main_arg9) = (m ((c : Thread nD τ).loc main_arg9)) := (W8_of_ne m ρ c main_arg9 (by decide)).trans (w7_arg9 m ρ c)

/-! ## Aggregation, and the third dense stage -/

theorem w9_s2 : W9 m ρ c (Proc.devRef .tc main_v59) = s2E m c :=
  (Stretch.s2_agg (W8 m ρ c)).trans (by rw [w8_src, w8_dst, w8_nrm, w8_h1])
theorem w9_row : W9 m ρ c (Proc.devRef .tc main_v60) = Cert.Spec.row32 (m ((c : Thread nD τ).loc main_arg7)) :=
  (Stretch.s2_row (W8 m ρ c)).trans (by rw [w8_arg7]; exact row_eq 32 (by decide) _ _ _)
theorem w9_arg3 : W9 m ρ c (Proc.devRef .tc main_arg3) = (m ((c : Thread nD τ).loc main_arg3)) :=
  (by keep_through hostOps2 : W9 m ρ c (Proc.devRef .tc main_arg3) = W8 m ρ c (Proc.devRef .tc main_arg3)).trans (w8_arg3 m ρ c)
theorem w9_arg8 : W9 m ρ c (Proc.devRef .tc main_arg8) = (m ((c : Thread nD τ).loc main_arg8)) :=
  (by keep_through hostOps2 : W9 m ρ c (Proc.devRef .tc main_arg8) = W8 m ρ c (Proc.devRef .tc main_arg8)).trans (w8_arg8 m ρ c)
theorem w9_arg9 : W9 m ρ c (Proc.devRef .tc main_arg9) = (m ((c : Thread nD τ).loc main_arg9)) :=
  (by keep_through hostOps2 : W9 m ρ c (Proc.devRef .tc main_arg9) = W8 m ρ c (Proc.devRef .tc main_arg9)).trans (w8_arg9 m ρ c)

theorem w10_o2 : W10 m ρ c (Proc.devRef .tc main_v61) = o2E m c :=
  (W10_arr m ρ c 2).trans ((RegionValue.region2 (V9 m ρ) c).trans
    (congrArg₂ (Cert.Spec.act32r (F := Ideal)) (w9_s2 m ρ c) (w9_row m ρ c)))
theorem w10_arg3 : W10 m ρ c (Proc.devRef .tc main_arg3) = (m ((c : Thread nD τ).loc main_arg3)) := (W10_of_ne m ρ c main_arg3 (by decide)).trans (w9_arg3 m ρ c)
theorem w10_arg8 : W10 m ρ c (Proc.devRef .tc main_arg8) = (m ((c : Thread nD τ).loc main_arg8)) := (W10_of_ne m ρ c main_arg8 (by decide)).trans (w9_arg8 m ρ c)
theorem w10_arg9 : W10 m ρ c (Proc.devRef .tc main_arg9) = (m ((c : Thread nD τ).loc main_arg9)) := (W10_of_ne m ρ c main_arg9 (by decide)).trans (w9_arg9 m ρ c)

/-! ## Pooling, and the head -/

theorem w11_p : W11 m ρ c (Proc.devRef .tc main_v73) = pE m c :=
  (Stretch.s3_pool (W10 m ρ c)).trans (by rw [w10_arg3, w10_o2])
theorem w11_row : W11 m ρ c (Proc.devRef .tc main_v74) = Cert.Spec.row2 (m ((c : Thread nD τ).loc main_arg9)) :=
  (Stretch.s3_row (W10 m ρ c)).trans (by rw [w10_arg9]; exact row_eq 2 (by decide) _ _ _)
theorem w11_arg8 : W11 m ρ c (Proc.devRef .tc main_arg8) = (m ((c : Thread nD τ).loc main_arg8)) :=
  (by keep_through hostOps3 : W11 m ρ c (Proc.devRef .tc main_arg8) = W10 m ρ c (Proc.devRef .tc main_arg8)).trans (w10_arg8 m ρ c)

/-- The result buffer at the end of the program: the whole network applied to the ten argument arrays. -/
theorem w12_out : W12 m ρ c (Proc.devRef .tc main_v75)
    = Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W12_arr m ρ c 3).trans ((RegionValue.region3 (V11 m ρ) c).trans ?_)
  rw [show V11 m ρ c main_v73 = pE m c from w11_p m ρ c,
    show V11 m ρ c main_arg8 = (m ((c : Thread nD τ).loc main_arg8)) from w11_arg8 m ρ c,
    show V11 m ρ c main_v74 = Cert.Spec.row2 (m ((c : Thread nD τ).loc main_arg9)) from w11_row m ρ c]
  unfold Cert.Spec.net
  rfl

end Cert.KernelIdeal.Chain

end
-- ==== Proof.RefOps.lean ====
/- The reference program's @main as one list of its 162 host operations, in order: each statement of the
   printed program as it stands, and each call of an outlined function (the scalar-alternative select, the
   activation with its inner select) as that function's own statements over the call's buffers; and, operation by
   operation, the builder's lemma that its buffers are TensorCore references. Tables only: that @main IS this
   list, and what the list computes, is proved where the list is used. -/
import proofs.«139496_j11227044512441_1_alg».proof.ReferenceIdeal
import Idealize.ShloMosaic.Lib.StableHlo.Run

noncomputable section

namespace Cert.ReferenceIdeal.HostList

open Cert.ReferenceIdeal Idealize.ShloMosaic Idealize.ShloMosaic.TcCoe

variable {F : FTy → Type} [FloatOps F] [Facts]

open Facts₀ Facts

/-- @main's operations in order, the calls unfolded. -/
abbrev ops : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg4 main_v4 ((fun l r => Host.dotGeneral dot_S100000x32_S32x64_S100000x64_1_0_0_1_n_n none l r) : (⟨S100000x32, .f32⟩ : BufTy).Contents (Elt F) → (⟨S32x64, .f32⟩ : BufTy).Contents (Elt F) → (⟨S100000x64, .f32⟩ : BufTy).Contents (Elt F)),
    StableHlo.unary main_arg2 main_v5 (Host.absf : (⟨S1600000, .f32⟩ : BufTy).Contents (Elt F) → (⟨S1600000, .f32⟩ : BufTy).Contents (Elt F)),
    StableHlo.nullary main_cst (constant S_ .f32 0x00000000#32),
    StableHlo.unary main_cst main_v6 (broadcastInDim S100000 ![] bcast_S_S100000 : (⟨S_, .f32⟩ : BufTy).Contents (Elt F) → (⟨S100000, .f32⟩ : BufTy).Contents (Elt F)),
    StableHlo.unary main_v1 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_0 (constant S_ .f32 0x00000000#32),
    StableHlo.unary main_cst_0 main_v9 (broadcastInDim S100000 ![] bcast_S_S100000 : (⟨S_, .f32⟩ : BufTy).Contents (Elt F) → (⟨S100000, .f32⟩ : BufTy).Contents (Elt F)),
    StableHlo.binary main_v8 main_v9 main_v10 (cmpf .ogt : (⟨S100000, .f32⟩ : BufTy).Contents (Elt F) → (⟨S100000, .f32⟩ : BufTy).Contents (Elt F) → (⟨S100000, .i1⟩ : BufTy).Contents (Elt F)),
    StableHlo.nullary main_cst_1 (constant S_ .f32 0x3F800000#32),
    StableHlo.TRef.unary (.of main_cst_1 : StableHlo.TRef sig ⟨S_, .f32⟩) main_call0.v0 id,
    StableHlo.TRef.unary main_call0.v0 main_call0.v1 (broadcastInDim S100000 ![] bcast_S_S100000),
    StableHlo.TRef.ternary (.of main_v10 : StableHlo.TRef sig ⟨S100000, .i1⟩) (.of main_v8 : StableHlo.TRef sig ⟨S100000, .f32⟩) main_call0.v1 main_call0.v2 select,
    StableHlo.nullary main_cst_2 (constant S_ .f32 0x00000000#32),
    StableHlo.unary main_cst_2 main_v12 (broadcastInDim S100000 ![] bcast_S_S100000 : (⟨S_, .f32⟩ : BufTy).Contents (Elt F) → (⟨S100000, .f32⟩ : BufTy).Contents (Elt F)),
    StableHlo.binary main_v8 main_v12 main_v13 (cmpf .ogt : (⟨S100000, .f32⟩ : BufTy).Contents (Elt F) → (⟨S100000, .f32⟩ : BufTy).Contents (Elt F) → (⟨S100000, .i1⟩ : BufTy).Contents (Elt F)),
    StableHlo.nullary main_cst_3 (constant S_ .f32 0xBF000000#32),
    StableHlo.unary main_cst_3 main_v14 (broadcastInDim S100000 ![] bcast_S_S100000 : (⟨S_, .f32⟩ : BufTy).Contents (Elt F) → (⟨S100000, .f32⟩ : BufTy).Contents (Elt F)),
    StableHlo.binary main_v11 main_v14 main_v15 (Host.powf : (⟨S100000, .f32⟩ : BufTy).Contents (Elt F) → (⟨S100000, .f32⟩ : BufTy).Contents (Elt F) → (⟨S100000, .f32⟩ : BufTy).Contents (Elt F)),
    StableHlo.nullary main_cst_4 (constant S_ .f32 0x00000000#32),
    StableHlo.TRef.unary (.of main_cst_4 : StableHlo.TRef sig ⟨S_, .f32⟩) main_call1.v0 id,
    StableHlo.TRef.unary main_call1.v0 main_call1.v1 (broadcastInDim S100000 ![] bcast_S_S100000),
    StableHlo.TRef.ternary (.of main_v13 : StableHlo.TRef sig ⟨S100000, .i1⟩) (.of main_v15 : StableHlo.TRef sig ⟨S100000, .f32⟩) main_call1.v1 main_call1.v2 select,
    StableHlo.nullary main_c (constantI S_ 32 0#32),
    StableHlo.unary main_c main_v17 (broadcastInDim S1600000 ![] bcast_S_S1600000 : (⟨S_, .i32⟩ : BufTy).Contents (Elt F) → (⟨S1600000, .i32⟩ : BufTy).Contents (Elt F)),
    StableHlo.binary main_v1 main_v17 main_v18 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v19 (broadcastInDim S1600000 ![] bcast_S_S1600000 : (⟨S_, .i32⟩ : BufTy).Contents (Elt F) → (⟨S1600000, .i32⟩ : BufTy).Contents (Elt F)),
    StableHlo.binary main_v1 main_v19 main_v20 (addi : (⟨S1600000, .i32⟩ : BufTy).Contents (Elt F) → (⟨S1600000, .i32⟩ : BufTy).Contents (Elt F) → (⟨S1600000, .i32⟩ : BufTy).Contents (Elt F)),
    StableHlo.ternary main_v18 main_v20 main_v1 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v21 main_v22 (broadcastInDim S1600000x1 ![0] bcast_S1600000_S1600000x1_0 : (⟨S1600000, .i32⟩ : BufTy).Contents (Elt F) → (⟨S1600000x1, .i32⟩ : BufTy).Contents (Elt F)),
    StableHlo.binary main_v16 main_v22 main_v23 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_6 (constantI S_ 32 0#32),
    StableHlo.unary main_c_6 main_v24 (broadcastInDim S1600000 ![] bcast_S_S1600000 : (⟨S_, .i32⟩ : BufTy).Contents (Elt F) → (⟨S1600000, .i32⟩ : BufTy).Contents (Elt F)),
    StableHlo.binary main_v3 main_v24 main_v25 (cmpi .slt : (⟨S1600000, .i32⟩ : BufTy).Contents (Elt F) → (⟨S1600000, .i32⟩ : BufTy).Contents (Elt F) → (⟨S1600000, .i1⟩ : BufTy).Contents (Elt F)),
    StableHlo.nullary main_c_7 (constantI S_ 32 100000#32),
    StableHlo.unary main_c_7 main_v26 (broadcastInDim S1600000 ![] bcast_S_S1600000 : (⟨S_, .i32⟩ : BufTy).Contents (Elt F) → (⟨S1600000, .i32⟩ : BufTy).Contents (Elt F)),
    StableHlo.binary main_v3 main_v26 main_v27 (addi : (⟨S1600000, .i32⟩ : BufTy).Contents (Elt F) → (⟨S1600000, .i32⟩ : BufTy).Contents (Elt F) → (⟨S1600000, .i32⟩ : BufTy).Contents (Elt F)),
    StableHlo.ternary main_v25 main_v27 main_v3 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v28 main_v29 (broadcastInDim S1600000x1 ![0] bcast_S1600000_S1600000x1_0 : (⟨S1600000, .i32⟩ : BufTy).Contents (Elt F) → (⟨S1600000x1, .i32⟩ : BufTy).Contents (Elt F)),
    StableHlo.binary main_v16 main_v29 main_v30 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v23 main_v30 main_v31 (mulf : (⟨S1600000, .f32⟩ : BufTy).Contents (Elt F) → (⟨S1600000, .f32⟩ : BufTy).Contents (Elt F) → (⟨S1600000, .f32⟩ : BufTy).Contents (Elt F)),
    StableHlo.unary main_v31 main_v32 (broadcastInDim S1600000x1 ![0] bcast_S1600000_S1600000x1_0 : (⟨S1600000, .f32⟩ : BufTy).Contents (Elt F) → (⟨S1600000x1, .f32⟩ : BufTy).Contents (Elt F)),
    StableHlo.nullary main_c_8 (constantI S_ 32 0#32),
    StableHlo.unary main_c_8 main_v33 (broadcastInDim S1600000 ![] bcast_S_S1600000 : (⟨S_, .i32⟩ : BufTy).Contents (Elt F) → (⟨S1600000, .i32⟩ : BufTy).Contents (Elt F)),
    StableHlo.binary main_v1 main_v33 main_v34 (cmpi .slt : (⟨S1600000, .i32⟩ : BufTy).Contents (Elt F) → (⟨S1600000, .i32⟩ : BufTy).Contents (Elt F) → (⟨S1600000, .i1⟩ : BufTy).Contents (Elt F)),
    StableHlo.nullary main_c_9 (constantI S_ 32 100000#32),
    StableHlo.unary main_c_9 main_v35 (broadcastInDim S1600000 ![] bcast_S_S1600000 : (⟨S_, .i32⟩ : BufTy).Contents (Elt F) → (⟨S1600000, .i32⟩ : BufTy).Contents (Elt F)),
    StableHlo.binary main_v1 main_v35 main_v36 (addi : (⟨S1600000, .i32⟩ : BufTy).Contents (Elt F) → (⟨S1600000, .i32⟩ : BufTy).Contents (Elt F) → (⟨S1600000, .i32⟩ : BufTy).Contents (Elt F)),
    StableHlo.ternary main_v34 main_v36 main_v1 main_v37 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v37 main_v38 (broadcastInDim S1600000x1 ![0] bcast_S1600000_S1600000x1_0 : (⟨S1600000, .i32⟩ : BufTy).Contents (Elt F) → (⟨S1600000x1, .i32⟩ : BufTy).Contents (Elt F)),
    StableHlo.binary main_v4 main_v38 main_v39 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    StableHlo.unary main_v32 main_v40 (broadcastInDim S1600000x64 ![0, 1] bcast_S1600000x1_S1600000x64_0_1 : (⟨S1600000x1, .f32⟩ : BufTy).Contents (Elt F) → (⟨S1600000x64, .f32⟩ : BufTy).Contents (Elt F)),
    StableHlo.binary main_v40 main_v39 main_v41 (mulf : (⟨S1600000x64, .f32⟩ : BufTy).Contents (Elt F) → (⟨S1600000x64, .f32⟩ : BufTy).Contents (Elt F) → (⟨S1600000x64, .f32⟩ : BufTy).Contents (Elt F)),
    StableHlo.nullary main_cst_10 (constant S_ .f32 0x00000000#32),
    StableHlo.unary main_cst_10 main_v42 (broadcastInDim S100000x64 ![] bcast_S_S100000x64 : (⟨S_, .f32⟩ : BufTy).Contents (Elt F) → (⟨S100000x64, .f32⟩ : BufTy).Contents (Elt F)),
    StableHlo.unary main_v3 main_v43 (broadcastInDim S1600000x1 ![0] bcast_S1600000_S1600000x1_0 : (⟨S1600000, .i32⟩ : BufTy).Contents (Elt F) → (⟨S1600000x1, .i32⟩ : BufTy).Contents (Elt F)),
    StableHlo.ternary main_v42 main_v43 main_v41 main_v44 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg5 main_v45 (broadcastInDim S1x64 ![1] bcast_S64_S1x64_1 : (⟨S64, .f32⟩ : BufTy).Contents (Elt F) → (⟨S1x64, .f32⟩ : BufTy).Contents (Elt F)),
    StableHlo.unary main_v45 main_v46 (broadcastInDim S100000x64 ![0, 1] bcast_S1x64_S100000x64_0_1 : (⟨S1x64, .f32⟩ : BufTy).Contents (Elt F) → (⟨S100000x64, .f32⟩ : BufTy).Contents (Elt F)),
    StableHlo.binary main_v44 main_v46 main_v47 (addf : (⟨S100000x64, .f32⟩ : BufTy).Contents (Elt F) → (⟨S100000x64, .f32⟩ : BufTy).Contents (Elt F) → (⟨S100000x64, .f32⟩ : BufTy).Contents (Elt F)),
    StableHlo.nullary main_cst_11 (constant S_ .f32 0x3C23D70A#32),
    StableHlo.TRef.nullary main_call2.cst (constant S_ .f32 0x00000000#32),
    StableHlo.TRef.unary main_call2.cst main_call2.v0 (broadcastInDim S100000x64 ![] bcast_S_S100000x64),
    StableHlo.TRef.binary (.of main_v47 : StableHlo.TRef sig ⟨S100000x64, .f32⟩) main_call2.v0 main_call2.v1 (cmpf .oge),
    StableHlo.TRef.unary (.of main_cst_11 : StableHlo.TRef sig ⟨S_, .f32⟩) main_call2.v2 id,
    StableHlo.TRef.unary main_call2.v2 main_call2.v3 (broadcastInDim S100000x64 ![] bcast_S_S100000x64),
    StableHlo.TRef.binary main_call2.v3 (.of main_v47 : StableHlo.TRef sig ⟨S100000x64, .f32⟩) main_call2.v4 mulf,
    StableHlo.TRef.ternary main_call2.v1 (.of main_v47 : StableHlo.TRef sig ⟨S100000x64, .f32⟩) main_call2.v4 main_call2.call0.v0 select,
    StableHlo.binary main_v48 main_arg6 main_v49 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    StableHlo.unary main_arg2 main_v50 (Host.absf : (⟨S1600000, .f32⟩ : BufTy).Contents (Elt F) → (⟨S1600000, .f32⟩ : BufTy).Contents (Elt F)),
    StableHlo.nullary main_cst_12 (constant S_ .f32 0x00000000#32),
    StableHlo.unary main_cst_12 main_v51 (broadcastInDim S100000 ![] bcast_S_S100000 : (⟨S_, .f32⟩ : BufTy).Contents (Elt F) → (⟨S100000, .f32⟩ : BufTy).Contents (Elt F)),
    StableHlo.unary main_v1 main_v52 (broadcastInDim S1600000x1 ![0] bcast_S1600000_S1600000x1_0 : (⟨S1600000, .i32⟩ : BufTy).Contents (Elt F) → (⟨S1600000x1, .i32⟩ : BufTy).Contents (Elt F)),
    StableHlo.ternary main_v51 main_v52 main_v50 main_v53 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_13 (constant S_ .f32 0x00000000#32),
    StableHlo.unary main_cst_13 main_v54 (broadcastInDim S100000 ![] bcast_S_S100000 : (⟨S_, .f32⟩ : BufTy).Contents (Elt F) → (⟨S100000, .f32⟩ : BufTy).Contents (Elt F)),
    StableHlo.binary main_v53 main_v54 main_v55 (cmpf .ogt : (⟨S100000, .f32⟩ : BufTy).Contents (Elt F) → (⟨S100000, .f32⟩ : BufTy).Contents (Elt F) → (⟨S100000, .i1⟩ : BufTy).Contents (Elt F)),
    StableHlo.nullary main_cst_14 (constant S_ .f32 0x3F800000#32),
    StableHlo.TRef.unary (.of main_cst_14 : StableHlo.TRef sig ⟨S_, .f32⟩) main_call3.v0 id,
    StableHlo.TRef.unary main_call3.v0 main_call3.v1 (broadcastInDim S100000 ![] bcast_S_S100000),
    StableHlo.TRef.ternary (.of main_v55 : StableHlo.TRef sig ⟨S100000, .i1⟩) (.of main_v53 : StableHlo.TRef sig ⟨S100000, .f32⟩) main_call3.v1 main_call3.v2 select,
    StableHlo.nullary main_cst_15 (constant S_ .f32 0x00000000#32),
    StableHlo.unary main_cst_15 main_v57 (broadcastInDim S100000 ![] bcast_S_S100000 : (⟨S_, .f32⟩ : BufTy).Contents (Elt F) → (⟨S100000, .f32⟩ : BufTy).Contents (Elt F)),
    StableHlo.binary main_v53 main_v57 main_v58 (cmpf .ogt : (⟨S100000, .f32⟩ : BufTy).Contents (Elt F) → (⟨S100000, .f32⟩ : BufTy).Contents (Elt F) → (⟨S100000, .i1⟩ : BufTy).Contents (Elt F)),
    StableHlo.nullary main_cst_16 (constant S_ .f32 0xBF000000#32),
    StableHlo.unary main_cst_16 main_v59 (broadcastInDim S100000 ![] bcast_S_S100000 : (⟨S_, .f32⟩ : BufTy).Contents (Elt F) → (⟨S100000, .f32⟩ : BufTy).Contents (Elt F)),
    StableHlo.binary main_v56 main_v59 main_v60 (Host.powf : (⟨S100000, .f32⟩ : BufTy).Contents (Elt F) → (⟨S100000, .f32⟩ : BufTy).Contents (Elt F) → (⟨S100000, .f32⟩ : BufTy).Contents (Elt F)),
    StableHlo.nullary main_cst_17 (constant S_ .f32 0x00000000#32),
    StableHlo.TRef.unary (.of main_cst_17 : StableHlo.TRef sig ⟨S_, .f32⟩) main_call4.v0 id,
    StableHlo.TRef.unary main_call4.v0 main_call4.v1 (broadcastInDim S100000 ![] bcast_S_S100000),
    StableHlo.TRef.ternary (.of main_v58 : StableHlo.TRef sig ⟨S100000, .i1⟩) (.of main_v60 : StableHlo.TRef sig ⟨S100000, .f32⟩) main_call4.v1 main_call4.v2 select,
    StableHlo.nullary main_c_18 (constantI S_ 32 0#32),
    StableHlo.unary main_c_18 main_v62 (broadcastInDim S1600000 ![] bcast_S_S1600000 : (⟨S_, .i32⟩ : BufTy).Contents (Elt F) → (⟨S1600000, .i32⟩ : BufTy).Contents (Elt F)),
    StableHlo.binary main_v1 main_v62 main_v63 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v64 (broadcastInDim S1600000 ![] bcast_S_S1600000 : (⟨S_, .i32⟩ : BufTy).Contents (Elt F) → (⟨S1600000, .i32⟩ : BufTy).Contents (Elt F)),
    StableHlo.binary main_v1 main_v64 main_v65 (addi : (⟨S1600000, .i32⟩ : BufTy).Contents (Elt F) → (⟨S1600000, .i32⟩ : BufTy).Contents (Elt F) → (⟨S1600000, .i32⟩ : BufTy).Contents (Elt F)),
    StableHlo.ternary main_v63 main_v65 main_v1 main_v66 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v66 main_v67 (broadcastInDim S1600000x1 ![0] bcast_S1600000_S1600000x1_0 : (⟨S1600000, .i32⟩ : BufTy).Contents (Elt F) → (⟨S1600000x1, .i32⟩ : BufTy).Contents (Elt F)),
    StableHlo.binary main_v61 main_v67 main_v68 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_20 (constantI S_ 32 0#32),
    StableHlo.unary main_c_20 main_v69 (broadcastInDim S1600000 ![] bcast_S_S1600000 : (⟨S_, .i32⟩ : BufTy).Contents (Elt F) → (⟨S1600000, .i32⟩ : BufTy).Contents (Elt F)),
    StableHlo.binary main_v3 main_v69 main_v70 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v71 (broadcastInDim S1600000 ![] bcast_S_S1600000 : (⟨S_, .i32⟩ : BufTy).Contents (Elt F) → (⟨S1600000, .i32⟩ : BufTy).Contents (Elt F)),
    StableHlo.binary main_v3 main_v71 main_v72 (addi : (⟨S1600000, .i32⟩ : BufTy).Contents (Elt F) → (⟨S1600000, .i32⟩ : BufTy).Contents (Elt F) → (⟨S1600000, .i32⟩ : BufTy).Contents (Elt F)),
    StableHlo.ternary main_v70 main_v72 main_v3 main_v73 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v73 main_v74 (broadcastInDim S1600000x1 ![0] bcast_S1600000_S1600000x1_0 : (⟨S1600000, .i32⟩ : BufTy).Contents (Elt F) → (⟨S1600000x1, .i32⟩ : BufTy).Contents (Elt F)),
    StableHlo.binary main_v61 main_v74 main_v75 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v68 main_v75 main_v76 (mulf : (⟨S1600000, .f32⟩ : BufTy).Contents (Elt F) → (⟨S1600000, .f32⟩ : BufTy).Contents (Elt F) → (⟨S1600000, .f32⟩ : BufTy).Contents (Elt F)),
    StableHlo.unary main_v76 main_v77 (broadcastInDim S1600000x1 ![0] bcast_S1600000_S1600000x1_0 : (⟨S1600000, .f32⟩ : BufTy).Contents (Elt F) → (⟨S1600000x1, .f32⟩ : BufTy).Contents (Elt F)),
    StableHlo.nullary main_c_22 (constantI S_ 32 0#32),
    StableHlo.unary main_c_22 main_v78 (broadcastInDim S1600000 ![] bcast_S_S1600000 : (⟨S_, .i32⟩ : BufTy).Contents (Elt F) → (⟨S1600000, .i32⟩ : BufTy).Contents (Elt F)),
    StableHlo.binary main_v1 main_v78 main_v79 (cmpi .slt : (⟨S1600000, .i32⟩ : BufTy).Contents (Elt F) → (⟨S1600000, .i32⟩ : BufTy).Contents (Elt F) → (⟨S1600000, .i1⟩ : BufTy).Contents (Elt F)),
    StableHlo.nullary main_c_23 (constantI S_ 32 100000#32),
    StableHlo.unary main_c_23 main_v80 (broadcastInDim S1600000 ![] bcast_S_S1600000 : (⟨S_, .i32⟩ : BufTy).Contents (Elt F) → (⟨S1600000, .i32⟩ : BufTy).Contents (Elt F)),
    StableHlo.binary main_v1 main_v80 main_v81 (addi : (⟨S1600000, .i32⟩ : BufTy).Contents (Elt F) → (⟨S1600000, .i32⟩ : BufTy).Contents (Elt F) → (⟨S1600000, .i32⟩ : BufTy).Contents (Elt F)),
    StableHlo.ternary main_v79 main_v81 main_v1 main_v82 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v82 main_v83 (broadcastInDim S1600000x1 ![0] bcast_S1600000_S1600000x1_0 : (⟨S1600000, .i32⟩ : BufTy).Contents (Elt F) → (⟨S1600000x1, .i32⟩ : BufTy).Contents (Elt F)),
    StableHlo.binary main_v49 main_v83 main_v84 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    StableHlo.unary main_v77 main_v85 (broadcastInDim S1600000x32 ![0, 1] bcast_S1600000x1_S1600000x32_0_1 : (⟨S1600000x1, .f32⟩ : BufTy).Contents (Elt F) → (⟨S1600000x32, .f32⟩ : BufTy).Contents (Elt F)),
    StableHlo.binary main_v85 main_v84 main_v86 (mulf : (⟨S1600000x32, .f32⟩ : BufTy).Contents (Elt F) → (⟨S1600000x32, .f32⟩ : BufTy).Contents (Elt F) → (⟨S1600000x32, .f32⟩ : BufTy).Contents (Elt F)),
    StableHlo.nullary main_cst_24 (constant S_ .f32 0x00000000#32),
    StableHlo.unary main_cst_24 main_v87 (broadcastInDim S100000x32 ![] bcast_S_S100000x32 : (⟨S_, .f32⟩ : BufTy).Contents (Elt F) → (⟨S100000x32, .f32⟩ : BufTy).Contents (Elt F)),
    StableHlo.unary main_v3 main_v88 (broadcastInDim S1600000x1 ![0] bcast_S1600000_S1600000x1_0 : (⟨S1600000, .i32⟩ : BufTy).Contents (Elt F) → (⟨S1600000x1, .i32⟩ : BufTy).Contents (Elt F)),
    StableHlo.ternary main_v87 main_v88 main_v86 main_v89 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    StableHlo.unary main_arg7 main_v90 (broadcastInDim S1x32 ![1] bcast_S32_S1x32_1 : (⟨S32, .f32⟩ : BufTy).Contents (Elt F) → (⟨S1x32, .f32⟩ : BufTy).Contents (Elt F)),
    StableHlo.unary main_v90 main_v91 (broadcastInDim S100000x32 ![0, 1] bcast_S1x32_S100000x32_0_1 : (⟨S1x32, .f32⟩ : BufTy).Contents (Elt F) → (⟨S100000x32, .f32⟩ : BufTy).Contents (Elt F)),
    StableHlo.binary main_v89 main_v91 main_v92 (addf : (⟨S100000x32, .f32⟩ : BufTy).Contents (Elt F) → (⟨S100000x32, .f32⟩ : BufTy).Contents (Elt F) → (⟨S100000x32, .f32⟩ : BufTy).Contents (Elt F)),
    StableHlo.nullary main_cst_25 (constant S_ .f32 0x3C23D70A#32),
    StableHlo.TRef.nullary main_call5.cst (constant S_ .f32 0x00000000#32),
    StableHlo.TRef.unary main_call5.cst main_call5.v0 (broadcastInDim S100000x32 ![] bcast_S_S100000x32),
    StableHlo.TRef.binary (.of main_v92 : StableHlo.TRef sig ⟨S100000x32, .f32⟩) main_call5.v0 main_call5.v1 (cmpf .oge),
    StableHlo.TRef.unary (.of main_cst_25 : StableHlo.TRef sig ⟨S_, .f32⟩) main_call5.v2 id,
    StableHlo.TRef.unary main_call5.v2 main_call5.v3 (broadcastInDim S100000x32 ![] bcast_S_S100000x32),
    StableHlo.TRef.binary main_call5.v3 (.of main_v92 : StableHlo.TRef sig ⟨S100000x32, .f32⟩) main_call5.v4 mulf,
    StableHlo.TRef.ternary main_call5.v1 (.of main_v92 : StableHlo.TRef sig ⟨S100000x32, .f32⟩) main_call5.v4 main_call5.call0.v0 select,
    StableHlo.nullary main_cst_26 (constant S_ .f32 0x00000000#32),
    StableHlo.unary main_cst_26 main_v94 (broadcastInDim S64x32 ![] bcast_S_S64x32 : (⟨S_, .f32⟩ : BufTy).Contents (Elt F) → (⟨S64x32, .f32⟩ : BufTy).Contents (Elt F)),
    StableHlo.unary main_arg3 main_v95 (broadcastInDim S100000x1 ![0] bcast_S100000_S100000x1_0 : (⟨S100000, .i32⟩ : BufTy).Contents (Elt F) → (⟨S100000x1, .i32⟩ : BufTy).Contents (Elt F)),
    StableHlo.ternary main_v94 main_v95 main_v93 main_v96 ((fun x i u => Host.scatterAdd scatter_S64x32_S100000x1_S100000x32_1_0_0_1 x i u) : (⟨S64x32, .f32⟩ : BufTy).Contents (Elt F) → (⟨S100000x1, .i32⟩ : BufTy).Contents (Elt F) → (⟨S100000x32, .f32⟩ : BufTy).Contents (Elt F) → (⟨S64x32, .f32⟩ : BufTy).Contents (Elt F)),
    StableHlo.nullary main_cst_27 (constant S_ .f32 0x3F800000#32),
    StableHlo.unary main_cst_27 main_v97 (broadcastInDim S100000 ![] bcast_S_S100000 : (⟨S_, .f32⟩ : BufTy).Contents (Elt F) → (⟨S100000, .f32⟩ : BufTy).Contents (Elt F)),
    StableHlo.nullary main_cst_28 (constant S_ .f32 0x00000000#32),
    StableHlo.unary main_cst_28 main_v98 (broadcastInDim S64 ![] bcast_S_S64 : (⟨S_, .f32⟩ : BufTy).Contents (Elt F) → (⟨S64, .f32⟩ : BufTy).Contents (Elt F)),
    StableHlo.unary main_arg3 main_v99 (broadcastInDim S100000x1 ![0] bcast_S100000_S100000x1_0 : (⟨S100000, .i32⟩ : BufTy).Contents (Elt F) → (⟨S100000x1, .i32⟩ : BufTy).Contents (Elt F)),
    StableHlo.ternary main_v98 main_v99 main_v97 main_v100 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_29 (constant S_ .f32 0x3F800000#32),
    StableHlo.unary main_cst_29 main_v101 (broadcastInDim S64 ![] bcast_S_S64 : (⟨S_, .f32⟩ : BufTy).Contents (Elt F) → (⟨S64, .f32⟩ : BufTy).Contents (Elt F)),
    StableHlo.binary main_v100 main_v101 main_v102 (maximumf : (⟨S64, .f32⟩ : BufTy).Contents (Elt F) → (⟨S64, .f32⟩ : BufTy).Contents (Elt F) → (⟨S64, .f32⟩ : BufTy).Contents (Elt F)),
    StableHlo.unary main_v102 main_v103 (broadcastInDim S64x1 ![0] bcast_S64_S64x1_0 : (⟨S64, .f32⟩ : BufTy).Contents (Elt F) → (⟨S64x1, .f32⟩ : BufTy).Contents (Elt F)),
    StableHlo.unary main_v103 main_v104 (broadcastInDim S64x32 ![0, 1] bcast_S64x1_S64x32_0_1 : (⟨S64x1, .f32⟩ : BufTy).Contents (Elt F) → (⟨S64x32, .f32⟩ : BufTy).Contents (Elt F)),
    StableHlo.binary main_v96 main_v104 main_v105 (Host.divf : (⟨S64x32, .f32⟩ : BufTy).Contents (Elt F) → (⟨S64x32, .f32⟩ : BufTy).Contents (Elt F) → (⟨S64x32, .f32⟩ : BufTy).Contents (Elt F)),
    StableHlo.binary main_v105 main_arg8 main_v106 ((fun l r => Host.dotGeneral dot_S64x32_S32x2_S64x2_1_0_0_1_n_n none l r) : (⟨S64x32, .f32⟩ : BufTy).Contents (Elt F) → (⟨S32x2, .f32⟩ : BufTy).Contents (Elt F) → (⟨S64x2, .f32⟩ : BufTy).Contents (Elt F)),
    StableHlo.unary main_arg9 main_v107 (broadcastInDim S1x2 ![1] bcast_S2_S1x2_1 : (⟨S2, .f32⟩ : BufTy).Contents (Elt F) → (⟨S1x2, .f32⟩ : BufTy).Contents (Elt F)),
    StableHlo.unary main_v107 main_v108 (broadcastInDim S64x2 ![0, 1] bcast_S1x2_S64x2_0_1 : (⟨S1x2, .f32⟩ : BufTy).Contents (Elt F) → (⟨S64x2, .f32⟩ : BufTy).Contents (Elt F)),
    StableHlo.binary main_v106 main_v108 main_v109 (addf : (⟨S64x2, .f32⟩ : BufTy).Contents (Elt F) → (⟨S64x2, .f32⟩ : BufTy).Contents (Elt F) → (⟨S64x2, .f32⟩ : BufTy).Contents (Elt F)) ]

/-- Each operation's buffers are TensorCore references: its builder's own lemma, operation by operation. -/
theorem ops_sub : (ops : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub ..,
    StableHlo.nullary_bufs_sub .., StableHlo.unary_bufs_sub .., StableHlo.unary_bufs_sub .., StableHlo.ternary_bufs_sub .., StableHlo.nullary_bufs_sub .., StableHlo.unary_bufs_sub ..,
    StableHlo.binary_bufs_sub .., StableHlo.nullary_bufs_sub .., StableHlo.unary_bufs_sub .., StableHlo.unary_bufs_sub .., StableHlo.ternary_bufs_sub .., StableHlo.nullary_bufs_sub ..,
    StableHlo.unary_bufs_sub .., StableHlo.binary_bufs_sub .., StableHlo.nullary_bufs_sub .., StableHlo.unary_bufs_sub .., StableHlo.binary_bufs_sub .., StableHlo.nullary_bufs_sub ..,
    StableHlo.unary_bufs_sub .., StableHlo.unary_bufs_sub .., StableHlo.ternary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.binary_bufs_sub .., StableHlo.unary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.binary_bufs_sub .., StableHlo.nullary_bufs_sub .., StableHlo.unary_bufs_sub ..,
    StableHlo.unary_bufs_sub .., StableHlo.ternary_bufs_sub .., StableHlo.unary_bufs_sub .., StableHlo.unary_bufs_sub .., StableHlo.binary_bufs_sub .., StableHlo.nullary_bufs_sub ..,
    StableHlo.nullary_bufs_sub .., StableHlo.unary_bufs_sub .., StableHlo.binary_bufs_sub .., StableHlo.unary_bufs_sub .., StableHlo.unary_bufs_sub .., StableHlo.binary_bufs_sub ..,
    StableHlo.ternary_bufs_sub .., StableHlo.binary_bufs_sub .., StableHlo.unary_bufs_sub .., StableHlo.nullary_bufs_sub .., StableHlo.unary_bufs_sub .., StableHlo.unary_bufs_sub ..,
    StableHlo.ternary_bufs_sub .., StableHlo.nullary_bufs_sub .., StableHlo.unary_bufs_sub .., StableHlo.binary_bufs_sub .., StableHlo.nullary_bufs_sub .., StableHlo.unary_bufs_sub ..,
    StableHlo.unary_bufs_sub .., StableHlo.ternary_bufs_sub .., StableHlo.nullary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub .., StableHlo.unary_bufs_sub .., StableHlo.ternary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.binary_bufs_sub .., StableHlo.unary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.unary_bufs_sub ..,
    StableHlo.binary_bufs_sub .., StableHlo.nullary_bufs_sub .., StableHlo.unary_bufs_sub .., StableHlo.unary_bufs_sub .., StableHlo.ternary_bufs_sub .., StableHlo.unary_bufs_sub ..,
    StableHlo.unary_bufs_sub .., StableHlo.binary_bufs_sub .., StableHlo.nullary_bufs_sub .., StableHlo.nullary_bufs_sub .., StableHlo.unary_bufs_sub .., StableHlo.binary_bufs_sub ..,
    StableHlo.unary_bufs_sub .., StableHlo.unary_bufs_sub .., StableHlo.binary_bufs_sub .., StableHlo.ternary_bufs_sub .., StableHlo.nullary_bufs_sub .., StableHlo.unary_bufs_sub ..,
    StableHlo.unary_bufs_sub .., StableHlo.ternary_bufs_sub .., StableHlo.nullary_bufs_sub .., StableHlo.unary_bufs_sub .., StableHlo.nullary_bufs_sub .., StableHlo.unary_bufs_sub ..,
    StableHlo.unary_bufs_sub .., StableHlo.ternary_bufs_sub .., StableHlo.nullary_bufs_sub .., StableHlo.unary_bufs_sub .., StableHlo.binary_bufs_sub .., StableHlo.unary_bufs_sub ..,
    StableHlo.unary_bufs_sub .., StableHlo.binary_bufs_sub .., StableHlo.binary_bufs_sub .., StableHlo.unary_bufs_sub .., StableHlo.unary_bufs_sub .., StableHlo.binary_bufs_sub ..⟩

end Cert.ReferenceIdeal.HostList

end
-- ==== Proof.RefRunA.lean ====
/-
  The reference program is a straight line. Its @main runs three windows in order and calls outlined
  functions six times (a select with a scalar alternative, four times; an activation that itself calls
  a select, twice); a call executes the callee's statements on the call's own buffers. So @main equals
  the sequence of the 162 operations listed in order (that each touches TensorCore buffers only is stated
  beside the list) — the facts the run of a straight line asks for.
-/
import proofs.«139496_j11227044512441_1_alg».proof.Proof.RefOps
import proofs.«139496_j11227044512441_1_alg».proof.Proof.Gen.ReferenceIdeal
import Idealize.ShloMosaic.Lib.StableHlo.Run

noncomputable section

namespace Cert.ReferenceIdeal.HandRun

open Cert.ReferenceIdeal Cert.ReferenceIdeal.HostList Idealize.ShloMosaic Idealize.ShloMosaic.TcCoe Idealize.SL.Sem
  Idealize.ShloMosaic.StableHlo

variable {F : FTy → Type} [FloatOps F] [Facts]

open Facts₀ Facts

-- the 162 binds are re-associated one inside the other: the rewriter recurses once per statement
set_option maxRecDepth 16384 in
set_option maxHeartbeats 4000000 in
/-- @main is the straight line: the three windows and the five outlined functions unfolded at their
    calls and sequencing re-associated, both sides are one chain of host steps. -/
theorem main_eq (c : Dev nD) : main (F := F) c = seq ops := by
  simp only [main, main_part0, main_part1, main_part2, fn_where.body, fn_where_0.body, fn_leaky_relu.body,
    fn_where_2.body, fn_leaky_relu_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

end Cert.ReferenceIdeal.HandRun

end
-- ==== Proof.RefRunB.lean ====
/-
  What the straight line computes. The contents of a buffer after the 162 operations, from contents V,
  is a fold: each operation rewrites the one buffer it writes and leaves the rest.
    * An argument buffer is written by no operation, so it keeps its contents.
    * The result buffer holds the last operation's function of the buffers it reads, each of which holds
      the function of the operation that wrote it, and so on down to the arguments. That composition is
      the network of Spec term for term: the sources and targets are the two rows of the edge table; the
      degree normalisation is computed twice, once per layer, from the same buffers, and both copies are
      the one normOf of Spec; each layer is a linear map, an aggregation, a bias and an activation; then
      the pool and the head.
-/
import proofs.«139496_j11227044512441_1_alg».proof.Proof.RefOps
import proofs.«139496_j11227044512441_1_alg».proof.Proof.Spec
import proofs.«139496_j11227044512441_1_alg».proof.Proof.Gen.ReferenceIdeal
import Idealize.ShloMosaic.Lib.StableHlo.Run

noncomputable section

namespace Cert.ReferenceIdeal.HandRun

open Cert.ReferenceIdeal Cert.ReferenceIdeal.HostList Idealize.ShloMosaic Idealize.ShloMosaic.TcCoe Idealize.SL.Sem
  Idealize.ShloMosaic.StableHlo

variable {F : FTy → Type} [FloatOps F] [Facts]

open Facts₀ Facts

/-! ## The arguments are not written -/

/-- No operation writes the given buffer: each operation writes one buffer, its result, and that is another
    reference. -/
local macro "not_written" : tactic => `(tactic|
  exact after_of_forall_not_mem _ _ (List.forall_iff_forall_mem.mp (by
    simp only [List.Forall, nullary_writes, unary_writes, binary_writes, ternary_writes, reshape_writes, Finset.mem_singleton]
    repeat' apply And.intro
    all_goals exact devRef_ne_of_ne (by decide))))

set_option maxRecDepth 16384 in
set_option maxHeartbeats 4000000 in
theorem arg0_eq (V : Valuation τ sig (Elt F)) :
    after ops V (main_arg0 : DevRef τ sig) = V (main_arg0 : DevRef τ sig) := by not_written
set_option maxRecDepth 16384 in
set_option maxHeartbeats 4000000 in
theorem arg1_eq (V : Valuation τ sig (Elt F)) :
    after ops V (main_arg1 : DevRef τ sig) = V (main_arg1 : DevRef τ sig) := by not_written
set_option maxRecDepth 16384 in
set_option maxHeartbeats 4000000 in
theorem arg2_eq (V : Valuation τ sig (Elt F)) :
    after ops V (main_arg2 : DevRef τ sig) = V (main_arg2 : DevRef τ sig) := by not_written
set_option maxRecDepth 16384 in
set_option maxHeartbeats 4000000 in
theorem arg3_eq (V : Valuation τ sig (Elt F)) :
    after ops V (main_arg3 : DevRef τ sig) = V (main_arg3 : DevRef τ sig) := by not_written
set_option maxRecDepth 16384 in
set_option maxHeartbeats 4000000 in
theorem arg4_eq (V : Valuation τ sig (Elt F)) :
    after ops V (main_arg4 : DevRef τ sig) = V (main_arg4 : DevRef τ sig) := by not_written
set_option maxRecDepth 16384 in
set_option maxHeartbeats 4000000 in
theorem arg5_eq (V : Valuation τ sig (Elt F)) :
    after ops V (main_arg5 : DevRef τ sig) = V (main_arg5 : DevRef τ sig) := by not_written
set_option maxRecDepth 16384 in
set_option maxHeartbeats 4000000 in
theorem arg6_eq (V : Valuation τ sig (Elt F)) :
    after ops V (main_arg6 : DevRef τ sig) = V (main_arg6 : DevRef τ sig) := by not_written
set_option maxRecDepth 16384 in
set_option maxHeartbeats 4000000 in
theorem arg7_eq (V : Valuation τ sig (Elt F)) :
    after ops V (main_arg7 : DevRef τ sig) = V (main_arg7 : DevRef τ sig) := by not_written
set_option maxRecDepth 16384 in
set_option maxHeartbeats 4000000 in
theorem arg8_eq (V : Valuation τ sig (Elt F)) :
    after ops V (main_arg8 : DevRef τ sig) = V (main_arg8 : DevRef τ sig) := by not_written
set_option maxRecDepth 16384 in
set_option maxHeartbeats 4000000 in
theorem arg9_eq (V : Valuation τ sig (Elt F)) :
    after ops V (main_arg9 : DevRef τ sig) = V (main_arg9 : DevRef τ sig) := by not_written

/-! ## The result is the network -/

-- the gathers, scatter-adds and elementwise host functions are searches and sums over an operand's
-- elements; the equation below never looks inside them, so they stay folded while it is checked
attribute [local irreducible] Host.gather Host.scatterAdd Host.powf Host.absf Host.divf in
set_option maxRecDepth 16384 in
set_option maxHeartbeats 4000000 in
/-- The fold at the result buffer: each operation's result at its own buffer is its function of the buffers
    it reads, at any other buffer what was there; rewritten through, the result is a composition of the
    operations' functions over the ten argument buffers, and that composition is `Spec.net` unfolded. -/
theorem out_eq (V : Valuation τ sig (Elt F)) :
    after ops V (main_v109 : DevRef τ sig) = Cert.Spec.net (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) := by
  after_results_simp
  rfl

end Cert.ReferenceIdeal.HandRun

end
-- ==== Proof.RefRun.lean ====
/-
  The reference program's run: from any memory with zero counters, every weakly fair execution of @main
  terminates; the result buffer then holds the network of Spec applied to the ten argument buffers'
  launch contents, and the argument buffers hold what they held. The program is a straight line of host
  operations (RefRunA), so its run ends with every buffer at the fold of the operations over the launch
  contents; the fold is read at the result and at the arguments in RefRunB.
-/
import proofs.«139496_j11227044512441_1_alg».proof.Proof.RefRunA
import proofs.«139496_j11227044512441_1_alg».proof.Proof.RefRunB

noncomputable section

namespace Cert.ReferenceIdeal.HandRun

open Cert.ReferenceIdeal Cert.ReferenceIdeal.HostList Idealize.ShloMosaic Idealize.ShloMosaic.TcCoe Idealize.SL.Sem
  Idealize.ShloMosaic.StableHlo

variable {F : FTy → Type} [FloatOps F] [Facts]

open Facts₀ Facts

/-- On every device, over any float instance, from any memory with zero counters: every weakly fair
    execution of @main terminates with the result buffer at the network of the arguments' launch
    contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v109)
          = Cert.Spec.net (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v109).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.ReferenceIdeal.HandRun

end
-- ==== Proof.lean ====
/-
  The kernel and its reference compute one function of their ten argument arrays: a two-layer graph
  convolution, a mean pool over each graph and a linear head,
      pool(act(agg(act(agg(x W1) + b1) W2) + b2)) Wm + bm,
  where agg sums, at each node, the rows at the sources of its incoming edges scaled by the degree
  normalisation of the edge, and act is the leaky rectifier. The reference does every stage with host
  operations. The kernel does the same host operations for the edge-indexed stages (degrees, normalisation,
  the two aggregations, the pooling) and does the four dense per-node stages as pipelined regions over row
  blocks: x W1; act(. + b1) W2; act(. + b2); . Wm + bm. At exact arithmetic on the extended reals a
  region's matrix product into a zero accumulator is the host's contraction sum, a change of float format is
  the identity, each row block is the restriction of the whole-array stage, and the rectifier's s * c is
  c * s; nothing else differs, and no finiteness of the inputs is used. So each program's result buffer ends
  at the same term, the network applied to the arguments, and the arguments are left as launched.
  The idealization rewrote no operation, so there is nothing to preserve beyond the text itself.
-/
import proofs.«139496_j11227044512441_1_alg».proof.Defs
import proofs.«139496_j11227044512441_1_alg».proof.Proof.Gen.Kernel
import proofs.«139496_j11227044512441_1_alg».proof.Proof.Gen.Kernel.Frame
import proofs.«139496_j11227044512441_1_alg».proof.Proof.Gen.KernelIdeal
import proofs.«139496_j11227044512441_1_alg».proof.Proof.Gen.KernelIdeal.Frame
import proofs.«139496_j11227044512441_1_alg».proof.Proof.Gen.ReferenceIdeal
import proofs.«139496_j11227044512441_1_alg».proof.Proof.Gen.Pre_finite_inputs
import proofs.«139496_j11227044512441_1_alg».proof.Proof.Spec
import proofs.«139496_j11227044512441_1_alg».proof.Proof.KerRun
import proofs.«139496_j11227044512441_1_alg».proof.Proof.KerChainB
import proofs.«139496_j11227044512441_1_alg».proof.Proof.RefRun
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel (hKernel := Cert.Kernel.Gen.facts) (hPre_finite_inputs := Cert.Pre_finite_inputs.Gen.facts) :=
  fun m ρ _ => Cert.Kernel.Gen.frame m ρ

/-- So does the idealized kernel. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.HandRun.run m ρ)

/-- The idealization changed nothing. -/
theorem preserves : Cert.preserves_Kernel_KernelIdeal := trivial

/-- From memories agreeing on the arguments both programs end with the network of the arguments in their
    result buffers: the kernel's by the fold through its segments, the reference's by its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.net (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run (Cert.KernelIdeal.defs (F := Ideal)) _ _).mono
      (fun _ h c => ⟨(h c).1.trans (Cert.KernelIdeal.Chain.w12_out m ρ c), (h c).2⟩)
      (Cert.KernelIdeal.NamedRun.run (F := Ideal) m ρ)
  · refine (θ_run (Cert.ReferenceIdeal.defs (F := Ideal)) _ _).mono (fun _ h c => ⟨(h c).1.trans ?_, (h c).2⟩)
      (Cert.ReferenceIdeal.HandRun.run m' ρ')
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
